-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x3 : Shape := ⟨3, ![2048, 128, 3]⟩
abbrev S2048x3 : Shape := ⟨2, ![2048, 3]⟩
abbrev S120x3 : Shape := ⟨2, ![120, 3]⟩
abbrev S120 : Shape := ⟨1, ![120]⟩
abbrev S100x120 : Shape := ⟨2, ![100, 120]⟩
abbrev S100 : Shape := ⟨1, ![100]⟩
abbrev S80x100 : Shape := ⟨2, ![80, 100]⟩
abbrev S80 : Shape := ⟨1, ![80]⟩
abbrev S60x80 : Shape := ⟨2, ![60, 80]⟩
abbrev S60 : Shape := ⟨1, ![60]⟩
abbrev S60x60 : Shape := ⟨2, ![60, 60]⟩
abbrev S40x60 : Shape := ⟨2, ![40, 60]⟩
abbrev S40 : Shape := ⟨1, ![40]⟩
abbrev S200x43 : Shape := ⟨2, ![200, 43]⟩
abbrev S200 : Shape := ⟨1, ![200]⟩
abbrev S100x200 : Shape := ⟨2, ![100, 200]⟩
abbrev S3x100 : Shape := ⟨2, ![3, 100]⟩
abbrev S3 : Shape := ⟨1, ![3]⟩
abbrev S_ : Shape := ⟨0, ![]⟩

class Facts : Prop where
  bcast_S_S2048x128x3 : S_.BroadcastsInDim S2048x128x3 (![] : Fin 0 → Fin S2048x128x3.rank)
  reducesTo_S2048x128x3_S_d0_1_2 : S2048x128x3.ReducesTo [0, 1, 2] S_
  h_S_ : 0 < S_.numel
  bcast_S_S2048x3 : S_.BroadcastsInDim S2048x3 (![] : Fin 0 → Fin S2048x3.rank)
  reducesTo_S2048x3_S_d0_1 : S2048x3.ReducesTo [0, 1] S_
  bcast_S_S120x3 : S_.BroadcastsInDim S120x3 (![] : Fin 0 → Fin S120x3.rank)
  reducesTo_S120x3_S_d0_1 : S120x3.ReducesTo [0, 1] S_
  bcast_S_S120 : S_.BroadcastsInDim S120 (![] : Fin 0 → Fin S120.rank)
  reducesTo_S120_S_d0 : S120.ReducesTo [0] S_
  bcast_S_S100x120 : S_.BroadcastsInDim S100x120 (![] : Fin 0 → Fin S100x120.rank)
  reducesTo_S100x120_S_d0_1 : S100x120.ReducesTo [0, 1] S_
  bcast_S_S100 : S_.BroadcastsInDim S100 (![] : Fin 0 → Fin S100.rank)
  reducesTo_S100_S_d0 : S100.ReducesTo [0] S_
  bcast_S_S80x100 : S_.BroadcastsInDim S80x100 (![] : Fin 0 → Fin S80x100.rank)
  reducesTo_S80x100_S_d0_1 : S80x100.ReducesTo [0, 1] S_
  bcast_S_S80 : S_.BroadcastsInDim S80 (![] : Fin 0 → Fin S80.rank)
  reducesTo_S80_S_d0 : S80.ReducesTo [0] S_
  bcast_S_S60x80 : S_.BroadcastsInDim S60x80 (![] : Fin 0 → Fin S60x80.rank)
  reducesTo_S60x80_S_d0_1 : S60x80.ReducesTo [0, 1] S_
  bcast_S_S60 : S_.BroadcastsInDim S60 (![] : Fin 0 → Fin S60.rank)
  reducesTo_S60_S_d0 : S60.ReducesTo [0] S_
  bcast_S_S60x60 : S_.BroadcastsInDim S60x60 (![] : Fin 0 → Fin S60x60.rank)
  reducesTo_S60x60_S_d0_1 : S60x60.ReducesTo [0, 1] S_
  bcast_S_S40x60 : S_.BroadcastsInDim S40x60 (![] : Fin 0 → Fin S40x60.rank)
  reducesTo_S40x60_S_d0_1 : S40x60.ReducesTo [0, 1] S_
  bcast_S_S40 : S_.BroadcastsInDim S40 (![] : Fin 0 → Fin S40.rank)
  reducesTo_S40_S_d0 : S40.ReducesTo [0] S_
  bcast_S_S200x43 : S_.BroadcastsInDim S200x43 (![] : Fin 0 → Fin S200x43.rank)
  reducesTo_S200x43_S_d0_1 : S200x43.ReducesTo [0, 1] S_
  bcast_S_S200 : S_.BroadcastsInDim S200 (![] : Fin 0 → Fin S200.rank)
  reducesTo_S200_S_d0 : S200.ReducesTo [0] S_
  bcast_S_S100x200 : S_.BroadcastsInDim S100x200 (![] : Fin 0 → Fin S100x200.rank)
  reducesTo_S100x200_S_d0_1 : S100x200.ReducesTo [0, 1] S_
  bcast_S_S3x100 : S_.BroadcastsInDim S3x100 (![] : Fin 0 → Fin S3x100.rank)
  reducesTo_S3x100_S_d0_1 : S3x100.ReducesTo [0, 1] S_
  bcast_S_S3 : S_.BroadcastsInDim S3 (![] : Fin 0 → Fin S3.rank)
  reducesTo_S3_S_d0 : S3.ReducesTo [0] S_

variable [Facts]

def fn_part5 {F : FTy → Type} [FloatOps F] (main_arg18 : FVec F S3x100 .f32) (main_arg19 : FVec F S3 .f32) (main_v83 : IVec S_ 1) (main_v84 : FVec F S100 .f32) (main_cst_32 : FVec F S_ .f32) : IVec S_ 1 :=
  let main_v85 : FVec F S100 .f32 := broadcastInDim S100 ![] bcast_S_S100 main_cst_32
  let main_v86 : IVec S100 1 := cmpf .olt main_v84 main_v85
  let main_c_33 : IVec S_ 1 := constantI S_ 1 1#1
  let main_v87 : IVec S_ 1 := (fun x v => Host.reduce IntOp.andi x v reducesTo_S100_S_d0 h_S_) main_v86 main_c_33
  let main_v88 : IVec S_ 1 := andi main_v83 main_v87
  let main_v89 : FVec F S3x100 .f32 := Host.absf main_arg18
  let main_cst_34 : FVec F S_ .f32 := constant S_ .f32 0x7F800000#32
  let main_v90 : FVec F S3x100 .f32 := broadcastInDim S3x100 ![] bcast_S_S3x100 main_cst_34
  let main_v91 : IVec S3x100 1 := cmpf .olt main_v89 main_v90
  let main_c_35 : IVec S_ 1 := constantI S_ 1 1#1
  let main_v92 : IVec S_ 1 := (fun x v => Host.reduce IntOp.andi x v reducesTo_S3x100_S_d0_1 h_S_) main_v91 main_c_35
  let main_v93 : IVec S_ 1 := andi main_v88 main_v92
  let main_v94 : FVec F S3 .f32 := Host.absf main_arg19
  let main_cst_36 : FVec F S_ .f32 := constant S_ .f32 0x7F800000#32
  let main_v95 : FVec F S3 .f32 := broadcastInDim S3 ![] bcast_S_S3 main_cst_36
  let main_v96 : IVec S3 1 := cmpf .olt main_v94 main_v95
  let main_c_37 : IVec S_ 1 := constantI S_ 1 1#1
  let main_v97 : IVec S_ 1 := (fun x v => Host.reduce IntOp.andi x v reducesTo_S3_S_d0 h_S_) main_v96 main_c_37
  let main_v98 : IVec S_ 1 := andi main_v93 main_v97
  main_v98

def fn_part4 {F : FTy → Type} [FloatOps F] (main_arg14 : FVec F S200x43 .f32) (main_arg15 : FVec F S200 .f32) (main_arg16 : FVec F S100x200 .f32) (main_arg17 : FVec F S100 .f32) (main_arg18 : FVec F S3x100 .f32) (main_arg19 : FVec F S3 .f32) (main_v63 : IVec S_ 1) (main_v67 : IVec S_ 1) : IVec S_ 1 :=
  let main_v68 : IVec S_ 1 := andi main_v63 main_v67
  let main_v69 : FVec F S200x43 .f32 := Host.absf main_arg14
  let main_cst_26 : FVec F S_ .f32 := constant S_ .f32 0x7F800000#32
  let main_v70 : FVec F S200x43 .f32 := broadcastInDim S200x43 ![] bcast_S_S200x43 main_cst_26
  let main_v71 : IVec S200x43 1 := cmpf .olt main_v69 main_v70
  let main_c_27 : IVec S_ 1 := constantI S_ 1 1#1
  let main_v72 : IVec S_ 1 := (fun x v => Host.reduce IntOp.andi x v reducesTo_S200x43_S_d0_1 h_S_) main_v71 main_c_27
  let main_v73 : IVec S_ 1 := andi main_v68 main_v72
  let main_v74 : FVec F S200 .f32 := Host.absf main_arg15
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S100x200 .f32 := Host.absf main_arg16
  let main_cst_30 : FVec F S_ .f32 := constant S_ .f32 0x7F800000#32
  let main_v80 : FVec F S100x200 .f32 := broadcastInDim S100x200 ![] bcast_S_S100x200 main_cst_30
  let main_v81 : IVec S100x200 1 := cmpf .olt main_v79 main_v80
  let main_c_31 : IVec S_ 1 := constantI S_ 1 1#1
  let main_v82 : IVec S_ 1 := (fun x v => Host.reduce IntOp.andi x v reducesTo_S100x200_S_d0_1 h_S_) main_v81 main_c_31
  let main_v83 : IVec S_ 1 := andi main_v78 main_v82
  let main_v84 : FVec F S100 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S60 .f32) (main_arg12 : FVec F S40x60 .f32) (main_arg13 : FVec F S40 .f32) (main_arg14 : FVec F S200x43 .f32) (main_arg15 : FVec F S200 .f32) (main_arg16 : FVec F S100x200 .f32) (main_arg17 : FVec F S100 .f32) (main_arg18 : FVec F S3x100 .f32) (main_arg19 : FVec F S3 .f32) (main_v48 : IVec S_ 1) (main_v49 : FVec F S60x60 .f32) (main_v50 : FVec F S60x60 .f32) : IVec S_ 1 :=
  let main_v51 : IVec S60x60 1 := cmpf .olt main_v49 main_v50
  let main_c_19 : IVec S_ 1 := constantI S_ 1 1#1
  let main_v52 : IVec S_ 1 := (fun x v => Host.reduce IntOp.andi x v reducesTo_S60x60_S_d0_1 h_S_) main_v51 main_c_19
  let main_v53 : IVec S_ 1 := andi main_v48 main_v52
  let main_v54 : FVec F S60 .f32 := Host.absf main_arg11
  let main_cst_20 : FVec F S_ .f32 := constant S_ .f32 0x7F800000#32
  let main_v55 : FVec F S60 .f32 := broadcastInDim S60 ![] bcast_S_S60 main_cst_20
  let main_v56 : IVec S60 1 := cmpf .olt main_v54 main_v55
  let main_c_21 : IVec S_ 1 := constantI S_ 1 1#1
  let main_v57 : IVec S_ 1 := (fun x v => Host.reduce IntOp.andi x v reducesTo_S60_S_d0 h_S_) main_v56 main_c_21
  let main_v58 : IVec S_ 1 := andi main_v53 main_v57
  let main_v59 : FVec F S40x60 .f32 := Host.absf main_arg12
  let main_cst_22 : FVec F S_ .f32 := constant S_ .f32 0x7F800000#32
  let main_v60 : FVec F S40x60 .f32 := broadcastInDim S40x60 ![] bcast_S_S40x60 main_cst_22
  let main_v61 : IVec S40x60 1 := cmpf .olt main_v59 main_v60
  let main_c_23 : IVec S_ 1 := constantI S_ 1 1#1
  let main_v62 : IVec S_ 1 := (fun x v => Host.reduce IntOp.andi x v reducesTo_S40x60_S_d0_1 h_S_) main_v61 main_c_23
  let main_v63 : IVec S_ 1 := andi main_v58 main_v62
  let main_v64 : FVec F S40 .f32 := Host.absf main_arg13
  let main_cst_24 : FVec F S_ .f32 := constant S_ .f32 0x7F800000#32
  let main_v65 : FVec F S40 .f32 := broadcastInDim S40 ![] bcast_S_S40 main_cst_24
  let main_v66 : IVec S40 1 := cmpf .olt main_v64 main_v65
  let main_c_25 : IVec S_ 1 := constantI S_ 1 1#1
  let main_v67 : IVec S_ 1 := (fun x v => Host.reduce IntOp.andi x v reducesTo_S40_S_d0 h_S_) main_v66 main_c_25
  fn_part4 (F := F) main_arg14 main_arg15 main_arg16 main_arg17 main_arg18 main_arg19 main_v63 main_v67

def fn_part2 {F : FTy → Type} [FloatOps F] (main_arg7 : FVec F S80 .f32) (main_arg8 : FVec F S60x80 .f32) (main_arg9 : FVec F S60 .f32) (main_arg10 : FVec F S60x60 .f32) (main_arg11 : FVec F S60 .f32) (main_arg12 : FVec F S40x60 .f32) (main_arg13 : FVec F S40 .f32) (main_arg14 : FVec F S200x43 .f32) (main_arg15 : FVec F S200 .f32) (main_arg16 : FVec F S100x200 .f32) (main_arg17 : FVec F S100 .f32) (main_arg18 : FVec F S3x100 .f32) (main_arg19 : FVec F S3 .f32) (main_v33 : IVec S_ 1) : IVec S_ 1 :=
  let main_v34 : FVec F S80 .f32 := Host.absf main_arg7
  let main_cst_12 : FVec F S_ .f32 := constant S_ .f32 0x7F800000#32
  let main_v35 : FVec F S80 .f32 := broadcastInDim S80 ![] bcast_S_S80 main_cst_12
  let main_v36 : IVec S80 1 := cmpf .olt main_v34 main_v35
  let main_c_13 : IVec S_ 1 := constantI S_ 1 1#1
  let main_v37 : IVec S_ 1 := (fun x v => Host.reduce IntOp.andi x v reducesTo_S80_S_d0 h_S_) main_v36 main_c_13
  let main_v38 : IVec S_ 1 := andi main_v33 main_v37
  let main_v39 : FVec F S60x80 .f32 := Host.absf main_arg8
  let main_cst_14 : FVec F S_ .f32 := constant S_ .f32 0x7F800000#32
  let main_v40 : FVec F S60x80 .f32 := broadcastInDim S60x80 ![] bcast_S_S60x80 main_cst_14
  let main_v41 : IVec S60x80 1 := cmpf .olt main_v39 main_v40
  let main_c_15 : IVec S_ 1 := constantI S_ 1 1#1
  let main_v42 : IVec S_ 1 := (fun x v => Host.reduce IntOp.andi x v reducesTo_S60x80_S_d0_1 h_S_) main_v41 main_c_15
  let main_v43 : IVec S_ 1 := andi main_v38 main_v42
  let main_v44 : FVec F S60 .f32 := Host.absf main_arg9
  let main_cst_16 : FVec F S_ .f32 := constant S_ .f32 0x7F800000#32
  let main_v45 : FVec F S60 .f32 := broadcastInDim S60 ![] bcast_S_S60 main_cst_16
  let main_v46 : IVec S60 1 := cmpf .olt main_v44 main_v45
  let main_c_17 : IVec S_ 1 := constantI S_ 1 1#1
  let main_v47 : IVec S_ 1 := (fun x v => Host.reduce IntOp.andi x v reducesTo_S60_S_d0 h_S_) main_v46 main_c_17
  let main_v48 : IVec S_ 1 := andi main_v43 main_v47
  let main_v49 : FVec F S60x60 .f32 := Host.absf main_arg10
  let main_cst_18 : FVec F S_ .f32 := constant S_ .f32 0x7F800000#32
  let main_v50 : FVec F S60x60 .f32 := broadcastInDim S60x60 ![] bcast_S_S60x60 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S100x120 .f32) (main_arg5 : FVec F S100 .f32) (main_arg6 : FVec F S80x100 .f32) (main_arg7 : FVec F S80 .f32) (main_arg8 : FVec F S60x80 .f32) (main_arg9 : FVec F S60 .f32) (main_arg10 : FVec F S60x60 .f32) (main_arg11 : FVec F S60 .f32) (main_arg12 : FVec F S40x60 .f32) (main_arg13 : FVec F S40 .f32) (main_arg14 : FVec F S200x43 .f32) (main_arg15 : FVec F S200 .f32) (main_arg16 : FVec F S100x200 .f32) (main_arg17 : FVec F S100 .f32) (main_arg18 : FVec F S3x100 .f32) (main_arg19 : FVec F S3 .f32) (main_v13 : IVec S_ 1) (main_v16 : IVec S120 1) : IVec S_ 1 :=
  let main_c_5 : IVec S_ 1 := constantI S_ 1 1#1
  let main_v17 : IVec S_ 1 := (fun x v => Host.reduce IntOp.andi x v reducesTo_S120_S_d0 h_S_) main_v16 main_c_5
  let main_v18 : IVec S_ 1 := andi main_v13 main_v17
  let main_v19 : FVec F S100x120 .f32 := Host.absf main_arg4
  let main_cst_6 : FVec F S_ .f32 := constant S_ .f32 0x7F800000#32
  let main_v20 : FVec F S100x120 .f32 := broadcastInDim S100x120 ![] bcast_S_S100x120 main_cst_6
  let main_v21 : IVec S100x120 1 := cmpf .olt main_v19 main_v20
  let main_c_7 : IVec S_ 1 := constantI S_ 1 1#1
  let main_v22 : IVec S_ 1 := (fun x v => Host.reduce IntOp.andi x v reducesTo_S100x120_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S80x100 .f32 := Host.absf main_arg6
  let main_cst_10 : FVec F S_ .f32 := constant S_ .f32 0x7F800000#32
  let main_v30 : FVec F S80x100 .f32 := broadcastInDim S80x100 ![] bcast_S_S80x100 main_cst_10
  let main_v31 : IVec S80x100 1 := cmpf .olt main_v29 main_v30
  let main_c_11 : IVec S_ 1 := constantI S_ 1 1#1
  let main_v32 : IVec S_ 1 := (fun x v => Host.reduce IntOp.andi x v reducesTo_S80x100_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S2048x128x3 .f32) (main_arg1 : FVec F S2048x3 .f32) (main_arg2 : FVec F S120x3 .f32) (main_arg3 : FVec F S120 .f32) (main_arg4 : FVec F S100x120 .f32) (main_arg5 : FVec F S100 .f32) (main_arg6 : FVec F S80x100 .f32) (main_arg7 : FVec F S80 .f32) (main_arg8 : FVec F S60x80 .f32) (main_arg9 : FVec F S60 .f32) (main_arg10 : FVec F S60x60 .f32) (main_arg11 : FVec F S60 .f32) (main_arg12 : FVec F S40x60 .f32) (main_arg13 : FVec F S40 .f32) (main_arg14 : FVec F S200x43 .f32) (main_arg15 : FVec F S200 .f32) (main_arg16 : FVec F S100x200 .f32) (main_arg17 : FVec F S100 .f32) (main_arg18 : FVec F S3x100 .f32) (main_arg19 : FVec F S3 .f32) : IVec S_ 1 :=
  let main_v0 : FVec F S2048x128x3 .f32 := Host.absf main_arg0
  let main_cst : FVec F S_ .f32 := constant S_ .f32 0x7F800000#32
  let main_v1 : FVec F S2048x128x3 .f32 := broadcastInDim S2048x128x3 ![] bcast_S_S2048x128x3 main_cst
  let main_v2 : IVec S2048x128x3 1 := cmpf .olt main_v0 main_v1
  let main_c : IVec S_ 1 := constantI S_ 1 1#1
  let main_v3 : IVec S_ 1 := (fun x v => Host.reduce IntOp.andi x v reducesTo_S2048x128x3_S_d0_1_2 h_S_) main_v2 main_c
  let main_v4 : FVec F S2048x3 .f32 := Host.absf main_arg1
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_v9 : FVec F S120x3 .f32 := Host.absf main_arg2
  let main_cst_2 : FVec F S_ .f32 := constant S_ .f32 0x7F800000#32
  let main_v10 : FVec F S120x3 .f32 := broadcastInDim S120x3 ![] bcast_S_S120x3 main_cst_2
  let main_v11 : IVec S120x3 1 := cmpf .olt main_v9 main_v10
  let main_c_3 : IVec S_ 1 := constantI S_ 1 1#1
  let main_v12 : IVec S_ 1 := (fun x v => Host.reduce IntOp.andi x v reducesTo_S120x3_S_d0_1 h_S_) main_v11 main_c_3
  let main_v13 : IVec S_ 1 := andi main_v8 main_v12
  let main_v14 : FVec F S120 .f32 := Host.absf main_arg3
  let main_cst_4 : FVec F S_ .f32 := constant S_ .f32 0x7F800000#32
  let main_v15 : FVec F S120 .f32 := broadcastInDim S120 ![] bcast_S_S120 main_cst_4
  let main_v16 : IVec S120 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S2048x128x3 : Shape := ⟨3, ![2048, 128, 3]⟩
abbrev S2048x3 : Shape := ⟨2, ![2048, 3]⟩
abbrev S120x3 : Shape := ⟨2, ![120, 3]⟩
abbrev S120 : Shape := ⟨1, ![120]⟩
abbrev S100x120 : Shape := ⟨2, ![100, 120]⟩
abbrev S100 : Shape := ⟨1, ![100]⟩
abbrev S80x100 : Shape := ⟨2, ![80, 100]⟩
abbrev S80 : Shape := ⟨1, ![80]⟩
abbrev S60x80 : Shape := ⟨2, ![60, 80]⟩
abbrev S60 : Shape := ⟨1, ![60]⟩
abbrev S60x60 : Shape := ⟨2, ![60, 60]⟩
abbrev S40x60 : Shape := ⟨2, ![40, 60]⟩
abbrev S40 : Shape := ⟨1, ![40]⟩
abbrev S200x43 : Shape := ⟨2, ![200, 43]⟩
abbrev S200 : Shape := ⟨1, ![200]⟩
abbrev S100x200 : Shape := ⟨2, ![100, 200]⟩
abbrev S3x100 : Shape := ⟨2, ![3, 100]⟩
abbrev S3 : Shape := ⟨1, ![3]⟩
abbrev S3x120 : Shape := ⟨2, ![3, 120]⟩
abbrev S200x40 : Shape := ⟨2, ![200, 40]⟩
abbrev S200x3 : Shape := ⟨2, ![200, 3]⟩
abbrev S64x128x3 : Shape := ⟨3, ![64, 128, 3]⟩
abbrev S64x3 : Shape := ⟨2, ![64, 3]⟩
abbrev S8192x3 : Shape := ⟨2, ![8192, 3]⟩
abbrev S8192x1 : Shape := ⟨2, ![8192, 1]⟩
abbrev S1x120 : Shape := ⟨2, ![1, 120]⟩
abbrev S8192x120 : Shape := ⟨2, ![8192, 120]⟩
abbrev S120x100 : Shape := ⟨2, ![120, 100]⟩
abbrev S8192x100 : Shape := ⟨2, ![8192, 100]⟩
abbrev S1x100 : Shape := ⟨2, ![1, 100]⟩
abbrev S100x80 : Shape := ⟨2, ![100, 80]⟩
abbrev S8192x80 : Shape := ⟨2, ![8192, 80]⟩
abbrev S1x80 : Shape := ⟨2, ![1, 80]⟩
abbrev S64x128x80 : Shape := ⟨3, ![64, 128, 80]⟩
abbrev S64x80 : Shape := ⟨2, ![64, 80]⟩
abbrev S80x60 : Shape := ⟨2, ![80, 60]⟩
abbrev S64x60 : Shape := ⟨2, ![64, 60]⟩
abbrev S1x60 : Shape := ⟨2, ![1, 60]⟩
abbrev S60x40 : Shape := ⟨2, ![60, 40]⟩
abbrev S64x40 : Shape := ⟨2, ![64, 40]⟩
abbrev S1x40 : Shape := ⟨2, ![1, 40]⟩
abbrev S40x200 : Shape := ⟨2, ![40, 200]⟩
abbrev S64x200 : Shape := ⟨2, ![64, 200]⟩
abbrev S3x200 : Shape := ⟨2, ![3, 200]⟩
abbrev S1x200 : Shape := ⟨2, ![1, 200]⟩
abbrev S200x100 : Shape := ⟨2, ![200, 100]⟩
abbrev S64x100 : Shape := ⟨2, ![64, 100]⟩
abbrev S100x3 : Shape := ⟨2, ![100, 3]⟩
abbrev S1x3 : Shape := ⟨2, ![1, 3]⟩
abbrev S64 : Shape := ⟨1, ![64]⟩
abbrev S64x1 : Shape := ⟨2, ![64, 1]⟩

abbrev nBuf : Space → Nat
  | .hbm => 24
  | .vmem => 25
  | .smem => 0
  | _ => 0

abbrev bufTy : (tb : Table) → Fin (tcTables nBuf tb) → BufTy
  | .hbm, ⟨0, _⟩ => ⟨S2048x128x3, .f32⟩
  | .hbm, ⟨1, _⟩ => ⟨S2048x3, .f32⟩
  | .hbm, ⟨2, _⟩ => ⟨S120x3, .f32⟩
  | .hbm, ⟨3, _⟩ => ⟨S120, .f32⟩
  | .hbm, ⟨4, _⟩ => ⟨S100x120, .f32⟩
  | .hbm, ⟨5, _⟩ => ⟨S100, .f32⟩
  | .hbm, ⟨6, _⟩ => ⟨S80x100, .f32⟩
  | .hbm, ⟨7, _⟩ => ⟨S80, .f32⟩
  | .hbm, ⟨8, _⟩ => ⟨S60x80, .f32⟩
  | .hbm, ⟨9, _⟩ => ⟨S60, .f32⟩
  | .hbm, ⟨10, _⟩ => ⟨S60x60, .f32⟩
  | .hbm, ⟨11, _⟩ => ⟨S60, .f32⟩
  | .hbm, ⟨12, _⟩ => ⟨S40x60, .f32⟩
  | .hbm, ⟨13, _⟩ => ⟨S40, .f32⟩
  | .hbm, ⟨14, _⟩ => ⟨S200x43, .f32⟩
  | .hbm, ⟨15, _⟩ => ⟨S200, .f32⟩
  | .hbm, ⟨16, _⟩ => ⟨S100x200, .f32⟩
  | .hbm, ⟨17, _⟩ => ⟨S100, .f32⟩
  | .hbm, ⟨18, _⟩ => ⟨S3x100, .f32⟩
  | .hbm, ⟨19, _⟩ => ⟨S3, .f32⟩
  | .hbm, ⟨20, _⟩ => ⟨S3x120, .f32⟩
  | .hbm, ⟨21, _⟩ => ⟨S200x40, .f32⟩
  | .hbm, ⟨22, _⟩ => ⟨S200x3, .f32⟩
  | .hbm, ⟨23, _⟩ => ⟨S2048x3, .f32⟩
  | .local _ .vmem, ⟨0, _⟩ => ⟨S64x128x3, .f32⟩
  | .local _ .vmem, ⟨1, _⟩ => ⟨S64x128x3, .f32⟩
  | .local _ .vmem, ⟨2, _⟩ => ⟨S64x3, .f32⟩
  | .local _ .vmem, ⟨3, _⟩ => ⟨S64x3, .f32⟩
  | .local _ .vmem, ⟨4, _⟩ => ⟨S3x120, .f32⟩
  | .local _ .vmem, ⟨5, _⟩ => ⟨S120, .f32⟩
  | .local _ .vmem, ⟨6, _⟩ => ⟨S100x120, .f32⟩
  | .local _ .vmem, ⟨7, _⟩ => ⟨S100, .f32⟩
  | .local _ .vmem, ⟨8, _⟩ => ⟨S80x100, .f32⟩
  | .local _ .vmem, ⟨9, _⟩ => ⟨S80, .f32⟩
  | .local _ .vmem, ⟨10, _⟩ => ⟨S60x80, .f32⟩
  | .local _ .vmem, ⟨11, _⟩ => ⟨S60, .f32⟩
  | .local _ .vmem, ⟨12, _⟩ => ⟨S60x60, .f32⟩
  | .local _ .vmem, ⟨13, _⟩ => ⟨S60, .f32⟩
  | .local _ .vmem, ⟨14, _⟩ => ⟨S40x60, .f32⟩
  | .local _ .vmem, ⟨15, _⟩ => ⟨S40, .f32⟩
  | .local _ .vmem, ⟨16, _⟩ => ⟨S200x40, .f32⟩
  | .local _ .vmem, ⟨17, _⟩ => ⟨S200x3, .f32⟩
  | .local _ .vmem, ⟨18, _⟩ => ⟨S200, .f32⟩
  | .local _ .vmem, ⟨19, _⟩ => ⟨S100x200, .f32⟩
  | .local _ .vmem, ⟨20, _⟩ => ⟨S100, .f32⟩
  | .local _ .vmem, ⟨21, _⟩ => ⟨S3x100, .f32⟩
  | .local _ .vmem, ⟨22, _⟩ => ⟨S3, .f32⟩
  | .local _ .vmem, ⟨23, _⟩ => ⟨S64x3, .f32⟩
  | .local _ .vmem, ⟨24, _⟩ => ⟨S64x3, .f32⟩
  | _, _ => ⟨S2048x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S60x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S60 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S60x60 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S60 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S40x60 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S200x40 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S200x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S200 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S100x200 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S100 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x100 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S3 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S64x3 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  transposes_S120x3_S3x120_1_0 : S120x3.Transposes [1, 0] S3x120
  slices_S200x43_S200x40_0_0 : S200x43.Slices ![0, 0] S200x40
  slices_S200x43_S200x3_0_40 : S200x43.Slices ![0, 40] S200x3
  inb_S64x128x3_S64x128x3_0_0_0 : ∀ a, (![0, 0, 0] : Fin 3 → Nat) a + S64x128x3.size a ≤ S64x128x3.size a
  h_S64x128x3 : 0 < S64x128x3.numel
  shapeCasts_S64x128x3_S8192x3 : S64x128x3.ShapeCasts S8192x3
  slices_S8192x3_o0_0_S8192x1 : S8192x3.Slices ![0, 0] S8192x1
  slices_S8192x3_o0_1_S8192x1 : S8192x3.Slices ![0, 1] S8192x1
  slices_S8192x3_o0_2_S8192x1 : S8192x3.Slices ![0, 2] S8192x1
  inb_S3x120_S3x120_0_0 : ∀ a, (![0, 0] : Fin 2 → Nat) a + S3x120.size a ≤ S3x120.size a
  h_S3x120 : 0 < S3x120.numel
  shapeCasts_S3x120_S3x120 : S3x120.ShapeCasts S3x120
  slices_S3x120_o0_0_S1x120 : S3x120.Slices ![0, 0] S1x120
  slices_S3x120_o1_0_S1x120 : S3x120.Slices ![1, 0] S1x120
  slices_S3x120_o2_0_S1x120 : S3x120.Slices ![2, 0] S1x120
  inb_S120_S120_0 : ∀ a, (![0] : Fin 1 → Nat) a + S120.size a ≤ S120.size a
  h_S120 : 0 < S120.numel
  shapeCasts_S120_S1x120 : S120.ShapeCasts S1x120
  broadcasts_S8192x1_S8192x120 : S8192x1.Broadcasts S8192x120
  broadcasts_S1x120_S8192x120 : S1x120.Broadcasts S8192x120
  bitsLt_bf16_f32 : FTy.bits .bf16 < FTy.bits .f32
  inb_S100x120_S100x120_0_0 : ∀ a, (![0, 0] : Fin 2 → Nat) a + S100x120.size a ≤ S100x120.size a
  h_S100x120 : 0 < S100x120.numel
  inb_S100_S100_0 : ∀ a, (![0] : Fin 1 → Nat) a + S100.size a ≤ S100.size a
  h_S100 : 0 < S100.numel
  transposes_S100x120_p1_0_S120x100 : S100x120.Transposes [1, 0] S120x100
  shapeCasts_S100_S1x100 : S100.ShapeCasts S1x100
  broadcasts_S1x100_S8192x100 : S1x100.Broadcasts S8192x100
  inb_S80x100_S80x100_0_0 : ∀ a, (![0, 0] : Fin 2 → Nat) a + S80x100.size a ≤ S80x100.size a
  h_S80x100 : 0 < S80x100.numel
  inb_S80_S80_0 : ∀ a, (![0] : Fin 1 → Nat) a + S80.size a ≤ S80.size a
  h_S80 : 0 < S80.numel
  transposes_S80x100_p1_0_S100x80 : S80x100.Transposes [1, 0] S100x80
  shapeCasts_S80_S1x80 : S80.ShapeCasts S1x80
  broadcasts_S1x80_S8192x80 : S1x80.Broadcasts S8192x80
  shapeCasts_S8192x80_S64x128x80 : S8192x80.ShapeCasts S64x128x80
  reduces_S64x128x80_S64x80 : S64x128x80.Reduces [1] S64x80
  inb_S60x80_S60x80_0_0 : ∀ a, (![0, 0] : Fin 2 → Nat) a + S60x80.size a ≤ S60x80.size a
  h_S60x80 : 0 < S60x80.numel
  inb_S60_S60_0 : ∀ a, (![0] : Fin 1 → Nat) a + S60.size a ≤ S60.size a
  h_S60 : 0 < S60.numel
  transposes_S60x80_p1_0_S80x60 : S60x80.Transposes [1, 0] S80x60
  shapeCasts_S60_S1x60 : S60.ShapeCasts S1x60
  broadcasts_S1x60_S64x60 : S1x60.Broadcasts S64x60
  inb_S60x60_S60x60_0_0 : ∀ a, (![0, 0] : Fin 2 → Nat) a + S60x60.size a ≤ S60x60.size a
  h_S60x60 : 0 < S60x60.numel
  transposes_S60x60_p1_0_S60x60 : S60x60.Transposes [1, 0] S60x60
  inb_S40x60_S40x60_0_0 : ∀ a, (![0, 0] : Fin 2 → Nat) a + S40x60.size a ≤ S40x60.size a
  h_S40x60 : 0 < S40x60.numel
  inb_S40_S40_0 : ∀ a, (![0] : Fin 1 → Nat) a + S40.size a ≤ S40.size a
  h_S40 : 0 < S40.numel
  transposes_S40x60_p1_0_S60x40 : S40x60.Transposes [1, 0] S60x40
  shapeCasts_S40_S1x40 : S40.ShapeCasts S1x40
  broadcasts_S1x40_S64x40 : S1x40.Broadcasts S64x40
  inb_S64x3_S64x3_0_0 : ∀ a, (![0, 0] : Fin 2 → Nat) a + S64x3.size a ≤ S64x3.size a
  h_S64x3 : 0 < S64x3.numel
  inb_S200x40_S200x40_0_0 : ∀ a, (![0, 0] : Fin 2 → Nat) a + S200x40.size a ≤ S200x40.size a
  h_S200x40 : 0 < S200x40.numel
  shapeCasts_S200x40_S200x40 : S200x40.ShapeCasts S200x40
  inb_S200x3_S200x3_0_0 : ∀ a, (![0, 0] : Fin 2 → Nat) a + S200x3.size a ≤ S200x3.size a
  h_S200x3 : 0 < S200x3.numel
  shapeCasts_S200x3_S200x3 : S200x3.ShapeCasts S200x3
  inb_S200_S200_0 : ∀ a, (![0] : Fin 1 → Nat) a + S200.size a ≤ S200.size a
  h_S200 : 0 < S200.numel
  transposes_S200x40_p1_0_S40x200 : S200x40.Transposes [1, 0] S40x200
  transposes_S200x3_p1_0_S3x200 : S200x3.Transposes [1, 0] S3x200
  shapeCasts_S200_S1x200 : S200.ShapeCasts S1x200
  broadcasts_S1x200_S64x200 : S1x200.Broadcasts S64x200
  inb_S100x200_S100x200_0_0 : ∀ a, (![0, 0] : Fin 2 → Nat) a + S100x200.size a ≤ S100x200.size a
  h_S100x200 : 0 < S100x200.numel
  transposes_S100x200_p1_0_S200x100 : S100x200.Transposes [1, 0] S200x100
  broadcasts_S1x100_S64x100 : S1x100.Broadcasts S64x100
  inb_S3x100_S3x100_0_0 : ∀ a, (![0, 0] : Fin 2 → Nat) a + S3x100.size a ≤ S3x100.size a
  h_S3x100 : 0 < S3x100.numel
  inb_S3_S3_0 : ∀ a, (![0] : Fin 1 → Nat) a + S3.size a ≤ S3.size a
  h_S3 : 0 < S3.numel
  transposes_S3x100_p1_0_S100x3 : S3x100.Transposes [1, 0] S100x3
  shapeCasts_S3_S1x3 : S3.ShapeCasts S1x3
  broadcasts_S1x3_S64x3 : S1x3.Broadcasts S64x3
  reduces_S64x3_S64 : S64x3.Reduces [1] S64
  shapeCasts_S64_S64x1 : S64.ShapeCasts S64x1
  broadcasts_S64x1_S64x3 : S64x1.Broadcasts S64x3
  dot_S8192x120_S120x100_S8192x100_1_0_0_1_n_n_wf : DotDims.WF S8192x120 S120x100 S8192x100 [1] [0] [0] [1] [] []
  dot_S8192x100_S100x80_S8192x80_1_0_0_1_n_n_wf : DotDims.WF S8192x100 S100x80 S8192x80 [1] [0] [0] [1] [] []
  dot_S64x80_S80x60_S64x60_1_0_0_1_n_n_wf : DotDims.WF S64x80 S80x60 S64x60 [1] [0] [0] [1] [] []
  dot_S64x60_S60x60_S64x60_1_0_0_1_n_n_wf : DotDims.WF S64x60 S60x60 S64x60 [1] [0] [0] [1] [] []
  dot_S64x60_S60x40_S64x40_1_0_0_1_n_n_wf : DotDims.WF S64x60 S60x40 S64x40 [1] [0] [0] [1] [] []
  dot_S64x40_S40x200_S64x200_1_0_0_1_n_n_wf : DotDims.WF S64x40 S40x200 S64x200 [1] [0] [0] [1] [] []
  dot_S64x3_S3x200_S64x200_1_0_0_1_n_n_wf : DotDims.WF S64x3 S3x200 S64x200 [1] [0] [0] [1] [] []
  dot_S64x200_S200x100_S64x100_1_0_0_1_n_n_wf : DotDims.WF S64x200 S200x100 S64x100 [1] [0] [0] [1] [] []
  dot_S64x100_S100x3_S64x3_1_0_0_1_n_n_wf : DotDims.WF S64x100 S100x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x3.size a ≤ S2048x128x3.size a
  hwx0_0 : ∀ i : grid0.Coords, EltTy.bits .f32 = 32 ∨ (Rect.block (s := S2048x128x3) S64x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x3.size a ≤ S2048x3.size a
  hwx0_1 : ∀ i : grid0.Coords, EltTy.bits .f32 = 32 ∨ (Rect.block (s := S2048x3) S64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x120.size a ≤ S3x120.size a
  hwx0_2 : ∀ i : grid0.Coords, EltTy.bits .f32 = 32 ∨ (Rect.block (s := S3x120) S3x120.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S120.size a ≤ S120.size a
  hwx0_3 : ∀ i : grid0.Coords, EltTy.bits .f32 = 32 ∨ (Rect.block (s := S120) S120.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x120.size a ≤ S100x120.size a
  hwx0_4 : ∀ i : grid0.Coords, EltTy.bits .f32 = 32 ∨ (Rect.block (s := S100x120) S100x120.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100.size a ≤ S100.size a
  hwx0_5 : ∀ i : grid0.Coords, EltTy.bits .f32 = 32 ∨ (Rect.block (s := S100) S100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S80x100.size a ≤ S80x100.size a
  hwx0_6 : ∀ i : grid0.Coords, EltTy.bits .f32 = 32 ∨ (Rect.block (s := S80x100) S80x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S80.size a ≤ S80.size a
  hwx0_7 : ∀ i : grid0.Coords, EltTy.bits .f32 = 32 ∨ (Rect.block (s := S80) S80.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S60x80.size a ≤ S60x80.size a
  hwx0_8 : ∀ i : grid0.Coords, EltTy.bits .f32 = 32 ∨ (Rect.block (s := S60x80) S60x80.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S60.size a ≤ S60.size a
  hwx0_9 : ∀ i : grid0.Coords, EltTy.bits .f32 = 32 ∨ (Rect.block (s := S60) S60.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S60x60.size a ≤ S60x60.size a
  hwx0_10 : ∀ i : grid0.Coords, EltTy.bits .f32 = 32 ∨ (Rect.block (s := S60x60) S60x60.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S60.size a ≤ S60.size a
  hwx0_11 : ∀ i : grid0.Coords, EltTy.bits .f32 = 32 ∨ (Rect.block (s := S60) S60.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S40x60.size a ≤ S40x60.size a
  hwx0_12 : ∀ i : grid0.Coords, EltTy.bits .f32 = 32 ∨ (Rect.block (s := S40x60) S40x60.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S40.size a ≤ S40.size a
  hwx0_13 : ∀ i : grid0.Coords, EltTy.bits .f32 = 32 ∨ (Rect.block (s := S40) S40.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S200x40.size a ≤ S200x40.size a
  hwx0_14 : ∀ i : grid0.Coords, EltTy.bits .f32 = 32 ∨ (Rect.block (s := S200x40) S200x40.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S200x3.size a ≤ S200x3.size a
  hwx0_15 : ∀ i : grid0.Coords, EltTy.bits .f32 = 32 ∨ (Rect.block (s := S200x3) S200x3.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S200.size a ≤ S200.size a
  hwx0_16 : ∀ i : grid0.Coords, EltTy.bits .f32 = 32 ∨ (Rect.block (s := S200) S200.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S100x200.size a ≤ S100x200.size a
  hwx0_17 : ∀ i : grid0.Coords, EltTy.bits .f32 = 32 ∨ (Rect.block (s := S100x200) S100x200.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S100.size a ≤ S100.size a
  hwx0_18 : ∀ i : grid0.Coords, EltTy.bits .f32 = 32 ∨ (Rect.block (s := S100) S100.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S3x100.size a ≤ S3x100.size a
  hwx0_19 : ∀ i : grid0.Coords, EltTy.bits .f32 = 32 ∨ (Rect.block (s := S3x100) S3x100.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S3.size a ≤ S3.size a
  hwx0_20 : ∀ i : grid0.Coords, EltTy.bits .f32 = 32 ∨ (Rect.block (s := S3) S3.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S64x3.size a ≤ S2048x3.size a
  hwx0_21 : ∀ i : grid0.Coords, EltTy.bits .f32 = 32 ∨ (Rect.block (s := S2048x3) S64x3.size (cc0_transform_21 i) (hinb0_21 i)).WholeWords (EltTy.packing .f32)

variable [Facts₀]

def dot_S8192x120_S120x100_S8192x100_1_0_0_1_n_n : DotDims S8192x120 S120x100 S8192x100 where
  lhsContracting := [1]
  rhsContracting := [0]
  lhsNonContracting := [0]
  rhsNonContracting := [1]
  lhsBatch := []
  rhsBatch := []
  wf := dot_S8192x120_S120x100_S8192x100_1_0_0_1_n_n_wf
def dot_S8192x100_S100x80_S8192x80_1_0_0_1_n_n : DotDims S8192x100 S100x80 S8192x80 where
  lhsContracting := [1]
  rhsContracting := [0]
  lhsNonContracting := [0]
  rhsNonContracting := [1]
  lhsBatch := []
  rhsBatch := []
  wf := dot_S8192x100_S100x80_S8192x80_1_0_0_1_n_n_wf
def dot_S64x80_S80x60_S64x60_1_0_0_1_n_n : DotDims S64x80 S80x60 S64x60 where
  lhsContracting := [1]
  rhsContracting := [0]
  lhsNonContracting := [0]
  rhsNonContracting := [1]
  lhsBatch := []
  rhsBatch := []
  wf := dot_S64x80_S80x60_S64x60_1_0_0_1_n_n_wf
def dot_S64x60_S60x60_S64x60_1_0_0_1_n_n : DotDims S64x60 S60x60 S64x60 where
  lhsContracting := [1]
  rhsContracting := [0]
  lhsNonContracting := [0]
  rhsNonContracting := [1]
  lhsBatch := []
  rhsBatch := []
  wf := dot_S64x60_S60x60_S64x60_1_0_0_1_n_n_wf
def dot_S64x60_S60x40_S64x40_1_0_0_1_n_n : DotDims S64x60 S60x40 S64x40 where
  lhsContracting := [1]
  rhsContracting := [0]
  lhsNonContracting := [0]
  rhsNonContracting := [1]
  lhsBatch := []
  rhsBatch := []
  wf := dot_S64x60_S60x40_S64x40_1_0_0_1_n_n_wf
def dot_S64x40_S40x200_S64x200_1_0_0_1_n_n : DotDims S64x40 S40x200 S64x200 where
  lhsContracting := [1]
  rhsContracting := [0]
  lhsNonContracting := [0]
  rhsNonContracting := [1]
  lhsBatch := []
  rhsBatch := []
  wf := dot_S64x40_S40x200_S64x200_1_0_0_1_n_n_wf
def dot_S64x3_S3x200_S64x200_1_0_0_1_n_n : DotDims S64x3 S3x200 S64x200 where
  lhsContracting := [1]
  rhsContracting := [0]
  lhsNonContracting := [0]
  rhsNonContracting := [1]
  lhsBatch := []
  rhsBatch := []
  wf := dot_S64x3_S3x200_S64x200_1_0_0_1_n_n_wf
def dot_S64x200_S200x100_S64x100_1_0_0_1_n_n : DotDims S64x200 S200x100 S64x100 where
  lhsContracting := [1]
  rhsContracting := [0]
  lhsNonContracting := [0]
  rhsNonContracting := [1]
  lhsBatch := []
  rhsBatch := []
  wf := dot_S64x200_S200x100_S64x100_1_0_0_1_n_n_wf
def dot_S64x100_S100x3_S64x3_1_0_0_1_n_n : DotDims S64x100 S100x3 S64x3 where
  lhsContracting := [1]
  rhsContracting := [0]
  lhsNonContracting := [0]
  rhsNonContracting := [1]
  lhsBatch := []
  rhsBatch := []
  wf := dot_S64x100_S100x3_S64x3_1_0_0_1_n_n_wf

abbrev win0_0 : Pipeline.Window sig grid0 :=
  Pipeline.Window.ofSpec (Memref.whole main_arg0) S64x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x120.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S100x120.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S80x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S80.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S60x80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S60.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S60x60.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S60.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S40x60.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S40.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1) S200x40.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v2) S200x3.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S200.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S100x200.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S100.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S3x100.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S3.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v3) S64x3.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S2048x128x3 : Shape := ⟨3, ![2048, 128, 3]⟩
abbrev S2048x3 : Shape := ⟨2, ![2048, 3]⟩
abbrev S120x3 : Shape := ⟨2, ![120, 3]⟩
abbrev S120 : Shape := ⟨1, ![120]⟩
abbrev S100x120 : Shape := ⟨2, ![100, 120]⟩
abbrev S100 : Shape := ⟨1, ![100]⟩
abbrev S80x100 : Shape := ⟨2, ![80, 100]⟩
abbrev S80 : Shape := ⟨1, ![80]⟩
abbrev S60x80 : Shape := ⟨2, ![60, 80]⟩
abbrev S60 : Shape := ⟨1, ![60]⟩
abbrev S60x60 : Shape := ⟨2, ![60, 60]⟩
abbrev S40x60 : Shape := ⟨2, ![40, 60]⟩
abbrev S40 : Shape := ⟨1, ![40]⟩
abbrev S200x43 : Shape := ⟨2, ![200, 43]⟩
abbrev S200 : Shape := ⟨1, ![200]⟩
abbrev S100x200 : Shape := ⟨2, ![100, 200]⟩
abbrev S3x100 : Shape := ⟨2, ![3, 100]⟩
abbrev S3 : Shape := ⟨1, ![3]⟩
abbrev S2048x128x120 : Shape := ⟨3, ![2048, 128, 120]⟩
abbrev S1x1x120 : Shape := ⟨3, ![1, 1, 120]⟩
abbrev S_ : Shape := ⟨0, ![]⟩
abbrev S2048x128x100 : Shape := ⟨3, ![2048, 128, 100]⟩
abbrev S1x1x100 : Shape := ⟨3, ![1, 1, 100]⟩
abbrev S2048x128x80 : Shape := ⟨3, ![2048, 128, 80]⟩
abbrev S1x1x80 : Shape := ⟨3, ![1, 1, 80]⟩
abbrev S2048x80 : Shape := ⟨2, ![2048, 80]⟩
abbrev S80x60 : Shape := ⟨2, ![80, 60]⟩
abbrev S2048x60 : Shape := ⟨2, ![2048, 60]⟩
abbrev S1x60 : Shape := ⟨2, ![1, 60]⟩
abbrev S60x40 : Shape := ⟨2, ![60, 40]⟩
abbrev S2048x40 : Shape := ⟨2, ![2048, 40]⟩
abbrev S1x40 : Shape := ⟨2, ![1, 40]⟩
abbrev S2048x43 : Shape := ⟨2, ![2048, 43]⟩
abbrev S43x200 : Shape := ⟨2, ![43, 200]⟩
abbrev S2048x200 : Shape := ⟨2, ![2048, 200]⟩
abbrev S1x200 : Shape := ⟨2, ![1, 200]⟩
abbrev S200x100 : Shape := ⟨2, ![200, 100]⟩
abbrev S2048x100 : Shape := ⟨2, ![2048, 100]⟩
abbrev S1x100 : Shape := ⟨2, ![1, 100]⟩
abbrev S100x3 : Shape := ⟨2, ![100, 3]⟩
abbrev S1x3 : Shape := ⟨2, ![1, 3]⟩
abbrev S2048 : Shape := ⟨1, ![2048]⟩
abbrev S2048x1 : Shape := ⟨2, ![2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S2048x128x3, .f32⟩
  | .hbm, ⟨1, _⟩ => ⟨S2048x3, .f32⟩
  | .hbm, ⟨2, _⟩ => ⟨S120x3, .f32⟩
  | .hbm, ⟨3, _⟩ => ⟨S120, .f32⟩
  | .hbm, ⟨4, _⟩ => ⟨S100x120, .f32⟩
  | .hbm, ⟨5, _⟩ => ⟨S100, .f32⟩
  | .hbm, ⟨6, _⟩ => ⟨S80x100, .f32⟩
  | .hbm, ⟨7, _⟩ => ⟨S80, .f32⟩
  | .hbm, ⟨8, _⟩ => ⟨S60x80, .f32⟩
  | .hbm, ⟨9, _⟩ => ⟨S60, .f32⟩
  | .hbm, ⟨10, _⟩ => ⟨S60x60, .f32⟩
  | .hbm, ⟨11, _⟩ => ⟨S60, .f32⟩
  | .hbm, ⟨12, _⟩ => ⟨S40x60, .f32⟩
  | .hbm, ⟨13, _⟩ => ⟨S40, .f32⟩
  | .hbm, ⟨14, _⟩ => ⟨S200x43, .f32⟩
  | .hbm, ⟨15, _⟩ => ⟨S200, .f32⟩
  | .hbm, ⟨16, _⟩ => ⟨S100x200, .f32⟩
  | .hbm, ⟨17, _⟩ => ⟨S100, .f32⟩
  | .hbm, ⟨18, _⟩ => ⟨S3x100, .f32⟩
  | .hbm, ⟨19, _⟩ => ⟨S3, .f32⟩
  | .hbm, ⟨20, _⟩ => ⟨S2048x128x120, .f32⟩
  | .hbm, ⟨21, _⟩ => ⟨S1x1x120, .f32⟩
  | .hbm, ⟨22, _⟩ => ⟨S2048x128x120, .f32⟩
  | .hbm, ⟨23, _⟩ => ⟨S2048x128x120, .f32⟩
  | .hbm, ⟨24, _⟩ => ⟨S_, .f32⟩
  | .hbm, ⟨25, _⟩ => ⟨S2048x128x120, .f32⟩
  | .hbm, ⟨26, _⟩ => ⟨S2048x128x120, .f32⟩
  | .hbm, ⟨27, _⟩ => ⟨S2048x128x100, .f32⟩
  | .hbm, ⟨28, _⟩ => ⟨S1x1x100, .f32⟩
  | .hbm, ⟨29, _⟩ => ⟨S2048x128x100, .f32⟩
  | .hbm, ⟨30, _⟩ => ⟨S2048x128x100, .f32⟩
  | .hbm, ⟨31, _⟩ => ⟨S_, .f32⟩
  | .hbm, ⟨32, _⟩ => ⟨S2048x128x100, .f32⟩
  | .hbm, ⟨33, _⟩ => ⟨S2048x128x100, .f32⟩
  | .hbm, ⟨34, _⟩ => ⟨S2048x128x80, .f32⟩
  | .hbm, ⟨35, _⟩ => ⟨S1x1x80, .f32⟩
  | .hbm, ⟨36, _⟩ => ⟨S2048x128x80, .f32⟩
  | .hbm, ⟨37, _⟩ => ⟨S2048x128x80, .f32⟩
  | .hbm, ⟨38, _⟩ => ⟨S_, .f32⟩
  | .hbm, ⟨39, _⟩ => ⟨S2048x128x80, .f32⟩
  | .hbm, ⟨40, _⟩ => ⟨S2048x128x80, .f32⟩
  | .hbm, ⟨41, _⟩ => ⟨S_, .f32⟩
  | .hbm, ⟨42, _⟩ => ⟨S2048x80, .f32⟩
  | .hbm, ⟨43, _⟩ => ⟨S80x60, .f32⟩
  | .hbm, ⟨44, _⟩ => ⟨S2048x60, .f32⟩
  | .hbm, ⟨45, _⟩ => ⟨S1x60, .f32⟩
  | .hbm, ⟨46, _⟩ => ⟨S2048x60, .f32⟩
  | .hbm, ⟨47, _⟩ => ⟨S2048x60, .f32⟩
  | .hbm, ⟨48, _⟩ => ⟨S_, .f32⟩
  | .hbm, ⟨49, _⟩ => ⟨S2048x60, .f32⟩
  | .hbm, ⟨50, _⟩ => ⟨S2048x60, .f32⟩
  | .hbm, ⟨51, _⟩ => ⟨S60x60, .f32⟩
  | .hbm, ⟨52, _⟩ => ⟨S2048x60, .f32⟩
  | .hbm, ⟨53, _⟩ => ⟨S1x60, .f32⟩
  | .hbm, ⟨54, _⟩ => ⟨S2048x60, .f32⟩
  | .hbm, ⟨55, _⟩ => ⟨S2048x60, .f32⟩
  | .hbm, ⟨56, _⟩ => ⟨S_, .f32⟩
  | .hbm, ⟨57, _⟩ => ⟨S2048x60, .f32⟩
  | .hbm, ⟨58, _⟩ => ⟨S2048x60, .f32⟩
  | .hbm, ⟨59, _⟩ => ⟨S60x40, .f32⟩
  | .hbm, ⟨60, _⟩ => ⟨S2048x40, .f32⟩
  | .hbm, ⟨61, _⟩ => ⟨S1x40, .f32⟩
  | .hbm, ⟨62, _⟩ => ⟨S2048x40, .f32⟩
  | .hbm, ⟨63, _⟩ => ⟨S2048x40, .f32⟩
  | .hbm, ⟨64, _⟩ => ⟨S2048x43, .f32⟩
  | .hbm, ⟨65, _⟩ => ⟨S43x200, .f32⟩
  | .hbm, ⟨66, _⟩ => ⟨S2048x200, .f32⟩
  | .hbm, ⟨67, _⟩ => ⟨S1x200, .f32⟩
  | .hbm, ⟨68, _⟩ => ⟨S2048x200, .f32⟩
  | .hbm, ⟨69, _⟩ => ⟨S2048x200, .f32⟩
  | .hbm, ⟨70, _⟩ => ⟨S_, .f32⟩
  | .hbm, ⟨71, _⟩ => ⟨S2048x200, .f32⟩
  | .hbm, ⟨72, _⟩ => ⟨S2048x200, .f32⟩
  | .hbm, ⟨73, _⟩ => ⟨S200x100, .f32⟩
  | .hbm, ⟨74, _⟩ => ⟨S2048x100, .f32⟩
  | .hbm, ⟨75, _⟩ => ⟨S1x100, .f32⟩
  | .hbm, ⟨76, _⟩ => ⟨S2048x100, .f32⟩
  | .hbm, ⟨77, _⟩ => ⟨S2048x100, .f32⟩
  | .hbm, ⟨78, _⟩ => ⟨S_, .f32⟩
  | .hbm, ⟨79, _⟩ => ⟨S2048x100, .f32⟩
  | .hbm, ⟨80, _⟩ => ⟨S2048x100, .f32⟩
  | .hbm, ⟨81, _⟩ => ⟨S100x3, .f32⟩
  | .hbm, ⟨82, _⟩ => ⟨S2048x3, .f32⟩
  | .hbm, ⟨83, _⟩ => ⟨S1x3, .f32⟩
  | .hbm, ⟨84, _⟩ => ⟨S2048x3, .f32⟩
  | .hbm, ⟨85, _⟩ => ⟨S2048x3, .f32⟩
  | .hbm, ⟨86, _⟩ => ⟨S_, .f32⟩
  | .hbm, ⟨87, _⟩ => ⟨S2048, .f32⟩
  | .hbm, ⟨88, _⟩ => ⟨S_, .f32⟩
  | .hbm, ⟨89, _⟩ => ⟨S2048, .f32⟩
  | .hbm, ⟨90, _⟩ => ⟨S2048, .f32⟩
  | .hbm, ⟨91, _⟩ => ⟨S2048x1, .f32⟩
  | .hbm, ⟨92, _⟩ => ⟨S2048x3, .f32⟩
  | .hbm, ⟨93, _⟩ => ⟨S2048x3, .f32⟩
  | .hbm, ⟨94, _⟩ => ⟨S2048x3, .f32⟩
  | .hbm, ⟨95, _⟩ => ⟨S_, .f32⟩
  | .hbm, ⟨96, _⟩ => ⟨S2048, .f32⟩
  | .hbm, ⟨97, _⟩ => ⟨S2048x1, .f32⟩
  | .hbm, ⟨98, _⟩ => ⟨S2048x3, .f32⟩
  | .hbm, ⟨99, _⟩ => ⟨S2048x3, .f32⟩
  | _, _ => ⟨S2048x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_cst : Ref sig .tc := ⟨.hbm, 38, rfl⟩
abbrev main_call2_v0 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_call3_cst : Ref sig .tc := ⟨.hbm, 48, rfl⟩
abbrev main_call3_v0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call4_cst : Ref sig .tc := ⟨.hbm, 56, rfl⟩
abbrev main_call4_v0 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call5_cst : Ref sig .tc := ⟨.hbm, 70, rfl⟩
abbrev main_call5_v0 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call6_cst : Ref sig .tc := ⟨.hbm, 78, rfl⟩
abbrev main_call6_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_0 : Ref sig .tc := ⟨.hbm, 86, rfl⟩
abbrev main_v51 : Ref sig .tc := ⟨.hbm, 87, rfl⟩
abbrev main_cst_1 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_2 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩

abbrev nD : Nat := 1
abbrev τ : Topo := Topo.v7x

variable {F : FTy → Type} [FloatOps F]

class Facts₀ : Prop where
  bcast_S120_S1x1x120_2 : S120.BroadcastsInDim S1x1x120 (![2] : Fin 1 → Fin S1x1x120.rank)
  bcast_S1x1x120_S2048x128x120_0_1_2 : S1x1x120.BroadcastsInDim S2048x128x120 (![0, 1, 2] : Fin 3 → Fin S2048x128x120.rank)
  bcast_S_S2048x128x120 : S_.BroadcastsInDim S2048x128x120 (![] : Fin 0 → Fin S2048x128x120.rank)
  bcast_S100_S1x1x100_2 : S100.BroadcastsInDim S1x1x100 (![2] : Fin 1 → Fin S1x1x100.rank)
  bcast_S1x1x100_S2048x128x100_0_1_2 : S1x1x100.BroadcastsInDim S2048x128x100 (![0, 1, 2] : Fin 3 → Fin S2048x128x100.rank)
  bcast_S_S2048x128x100 : S_.BroadcastsInDim S2048x128x100 (![] : Fin 0 → Fin S2048x128x100.rank)
  bcast_S80_S1x1x80_2 : S80.BroadcastsInDim S1x1x80 (![2] : Fin 1 → Fin S1x1x80.rank)
  bcast_S1x1x80_S2048x128x80_0_1_2 : S1x1x80.BroadcastsInDim S2048x128x80 (![0, 1, 2] : Fin 3 → Fin S2048x128x80.rank)
  bcast_S_S2048x128x80 : S_.BroadcastsInDim S2048x128x80 (![] : Fin 0 → Fin S2048x128x80.rank)
  reducesTo_S2048x128x80_S2048x80_d1 : S2048x128x80.ReducesTo [1] S2048x80
  h_S_ : 0 < S_.numel
  transposes_S60x80_S80x60_1_0 : S60x80.Transposes [1, 0] S80x60
  bcast_S60_S1x60_1 : S60.BroadcastsInDim S1x60 (![1] : Fin 1 → Fin S1x60.rank)
  bcast_S1x60_S2048x60_0_1 : S1x60.BroadcastsInDim S2048x60 (![0, 1] : Fin 2 → Fin S2048x60.rank)
  bcast_S_S2048x60 : S_.BroadcastsInDim S2048x60 (![] : Fin 0 → Fin S2048x60.rank)
  transposes_S60x60_S60x60_1_0 : S60x60.Transposes [1, 0] S60x60
  transposes_S40x60_S60x40_1_0 : S40x60.Transposes [1, 0] S60x40
  bcast_S40_S1x40_1 : S40.BroadcastsInDim S1x40 (![1] : Fin 1 → Fin S1x40.rank)
  bcast_S1x40_S2048x40_0_1 : S1x40.BroadcastsInDim S2048x40 (![0, 1] : Fin 2 → Fin S2048x40.rank)
  concatenates_S2048x40_S2048x3_S2048x43_d1 : Shape.Concatenates [S2048x40, S2048x3] S2048x43 1
  transposes_S200x43_S43x200_1_0 : S200x43.Transposes [1, 0] S43x200
  bcast_S200_S1x200_1 : S200.BroadcastsInDim S1x200 (![1] : Fin 1 → Fin S1x200.rank)
  bcast_S1x200_S2048x200_0_1 : S1x200.BroadcastsInDim S2048x200 (![0, 1] : Fin 2 → Fin S2048x200.rank)
  bcast_S_S2048x200 : S_.BroadcastsInDim S2048x200 (![] : Fin 0 → Fin S2048x200.rank)
  transposes_S100x200_S200x100_1_0 : S100x200.Transposes [1, 0] S200x100
  bcast_S100_S1x100_1 : S100.BroadcastsInDim S1x100 (![1] : Fin 1 → Fin S1x100.rank)
  bcast_S1x100_S2048x100_0_1 : S1x100.BroadcastsInDim S2048x100 (![0, 1] : Fin 2 → Fin S2048x100.rank)
  bcast_S_S2048x100 : S_.BroadcastsInDim S2048x100 (![] : Fin 0 → Fin S2048x100.rank)
  transposes_S3x100_S100x3_1_0 : S3x100.Transposes [1, 0] S100x3
  bcast_S3_S1x3_1 : S3.BroadcastsInDim S1x3 (![1] : Fin 1 → Fin S1x3.rank)
  bcast_S1x3_S2048x3_0_1 : S1x3.BroadcastsInDim S2048x3 (![0, 1] : Fin 2 → Fin S2048x3.rank)
  reducesTo_S2048x3_S2048_d1 : S2048x3.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x3_0_1 : S2048x1.BroadcastsInDim S2048x3 (![0, 1] : Fin 2 → Fin S2048x3.rank)
  dot_S2048x128x3_S120x3_S2048x128x120_2_1_01_0_n_n_wf : DotDims.WF S2048x128x3 S120x3 S2048x128x120 [2] [1] [0, 1] [0] [] []
  dot_S2048x128x120_S100x120_S2048x128x100_2_1_01_0_n_n_wf : DotDims.WF S2048x128x120 S100x120 S2048x128x100 [2] [1] [0, 1] [0] [] []
  dot_S2048x128x100_S80x100_S2048x128x80_2_1_01_0_n_n_wf : DotDims.WF S2048x128x100 S80x100 S2048x128x80 [2] [1] [0, 1] [0] [] []
  dot_S2048x80_S80x60_S2048x60_1_0_0_1_n_n_wf : DotDims.WF S2048x80 S80x60 S2048x60 [1] [0] [0] [1] [] []
  dot_S2048x60_S60x60_S2048x60_1_0_0_1_n_n_wf : DotDims.WF S2048x60 S60x60 S2048x60 [1] [0] [0] [1] [] []
  dot_S2048x60_S60x40_S2048x40_1_0_0_1_n_n_wf : DotDims.WF S2048x60 S60x40 S2048x40 [1] [0] [0] [1] [] []
  dot_S2048x43_S43x200_S2048x200_1_0_0_1_n_n_wf : DotDims.WF S2048x43 S43x200 S2048x200 [1] [0] [0] [1] [] []
  dot_S2048x200_S200x100_S2048x100_1_0_0_1_n_n_wf : DotDims.WF S2048x200 S200x100 S2048x100 [1] [0] [0] [1] [] []
  dot_S2048x100_S100x3_S2048x3_1_0_0_1_n_n_wf : DotDims.WF S2048x100 S100x3 S2048x3 [1] [0] [0] [1] [] []

variable [Facts₀]

def dot_S2048x128x3_S120x3_S2048x128x120_2_1_01_0_n_n : DotDims S2048x128x3 S120x3 S2048x128x120 where
  lhsContracting := [2]
  rhsContracting := [1]
  lhsNonContracting := [0, 1]
  rhsNonContracting := [0]
  lhsBatch := []
  rhsBatch := []
  wf := dot_S2048x128x3_S120x3_S2048x128x120_2_1_01_0_n_n_wf
def dot_S2048x128x120_S100x120_S2048x128x100_2_1_01_0_n_n : DotDims S2048x128x120 S100x120 S2048x128x100 where
  lhsContracting := [2]
  rhsContracting := [1]
  lhsNonContracting := [0, 1]
  rhsNonContracting := [0]
  lhsBatch := []
  rhsBatch := []
  wf := dot_S2048x128x120_S100x120_S2048x128x100_2_1_01_0_n_n_wf
def dot_S2048x128x100_S80x100_S2048x128x80_2_1_01_0_n_n : DotDims S2048x128x100 S80x100 S2048x128x80 where
  lhsContracting := [2]
  rhsContracting := [1]
  lhsNonContracting := [0, 1]
  rhsNonContracting := [0]
  lhsBatch := []
  rhsBatch := []
  wf := dot_S2048x128x100_S80x100_S2048x128x80_2_1_01_0_n_n_wf
def dot_S2048x80_S80x60_S2048x60_1_0_0_1_n_n : DotDims S2048x80 S80x60 S2048x60 where
  lhsContracting := [1]
  rhsContracting := [0]
  lhsNonContracting := [0]
  rhsNonContracting := [1]
  lhsBatch := []
  rhsBatch := []
  wf := dot_S2048x80_S80x60_S2048x60_1_0_0_1_n_n_wf
def dot_S2048x60_S60x60_S2048x60_1_0_0_1_n_n : DotDims S2048x60 S60x60 S2048x60 where
  lhsContracting := [1]
  rhsContracting := [0]
  lhsNonContracting := [0]
  rhsNonContracting := [1]
  lhsBatch := []
  rhsBatch := []
  wf := dot_S2048x60_S60x60_S2048x60_1_0_0_1_n_n_wf
def dot_S2048x60_S60x40_S2048x40_1_0_0_1_n_n : DotDims S2048x60 S60x40 S2048x40 where
  lhsContracting := [1]
  rhsContracting := [0]
  lhsNonContracting := [0]
  rhsNonContracting := [1]
  lhsBatch := []
  rhsBatch := []
  wf := dot_S2048x60_S60x40_S2048x40_1_0_0_1_n_n_wf
def dot_S2048x43_S43x200_S2048x200_1_0_0_1_n_n : DotDims S2048x43 S43x200 S2048x200 where
  lhsContracting := [1]
  rhsContracting := [0]
  lhsNonContracting := [0]
  rhsNonContracting := [1]
  lhsBatch := []
  rhsBatch := []
  wf := dot_S2048x43_S43x200_S2048x200_1_0_0_1_n_n_wf
def dot_S2048x200_S200x100_S2048x100_1_0_0_1_n_n : DotDims S2048x200 S200x100 S2048x100 where
  lhsContracting := [1]
  rhsContracting := [0]
  lhsNonContracting := [0]
  rhsNonContracting := [1]
  lhsBatch := []
  rhsBatch := []
  wf := dot_S2048x200_S200x100_S2048x100_1_0_0_1_n_n_wf
def dot_S2048x100_S100x3_S2048x3_1_0_0_1_n_n : DotDims S2048x100 S100x3 S2048x3 where
  lhsContracting := [1]
  rhsContracting := [0]
  lhsNonContracting := [0]
  rhsNonContracting := [1]
  lhsBatch := []
  rhsBatch := []
  wf := dot_S2048x100_S100x3_S2048x3_1_0_0_1_n_n_wf

class Facts : Prop extends Facts₀ where

variable [Facts]
-- ==== Proof.Spec.lean ====
/-
  The function both programs compute, written once over plain index sets.

  A set of 128 points in ℝ³ is sent, point by point, through three rectified affine layers (3 → 120 → 100 → 80); the
  128 results are added up; the sum goes through two rectified affine layers and one affine layer (80 → 60 → 60 → 40);
  the 40 numbers, followed by 3 further numbers, go through two rectified affine layers and one affine layer
  (43 → 200 → 100 → 3); and the three resulting numbers are normalised by a softmax. Everything is read on the extended
  reals, where a sum is commutative and associative, which is all the comparison of the two programs needs.
-/
import Idealize.ShloMosaic.PureOps.Ideal
import Idealize.ShloMosaic.PureOps.Ideal.Laws
import Idealize.ShloMosaic.Lib.ValueIdx

noncomputable section

open scoped BigOperators

namespace Cert.SetNet

open Idealize.ShloMosaic

/-- The rectifier's floor: the value of the float word of +0 (kept as the word; both programs spell it so). -/
abbrev floor0 : EReal := Ideal.ofBits .f32 0x00000000#32

/-- The value of the float word of −∞, from which both programs start the maximum of a row. -/
abbrev bottom : EReal := Ideal.ofBits .f32 0xFF800000#32

/-- An affine map: entry `c` is the inner product of `x` with row `c` of `W`, plus `b c`. -/
def affine {k o : ℕ} (W : Fin o → Fin k → EReal) (b : Fin o → EReal) (x : Fin k → EReal) : Fin o → EReal :=
  fun c => (∑ j, x j * W c j) + b c

/-- A rectified affine layer. -/
def layer {k o : ℕ} (W : Fin o → Fin k → EReal) (b : Fin o → EReal) (x : Fin k → EReal) : Fin o → EReal :=
  fun c => max (affine W b x c) floor0

/-- The weights and biases of the nine layers. -/
structure Params where
  w1 : Fin 120 → Fin 3 → EReal
  b1 : Fin 120 → EReal
  w2 : Fin 100 → Fin 120 → EReal
  b2 : Fin 100 → EReal
  w3 : Fin 80 → Fin 100 → EReal
  b3 : Fin 80 → EReal
  u1 : Fin 60 → Fin 80 → EReal
  c1 : Fin 60 → EReal
  u2 : Fin 60 → Fin 60 → EReal
  c2 : Fin 60 → EReal
  u3 : Fin 40 → Fin 60 → EReal
  c3 : Fin 40 → EReal
  v1 : Fin 200 → Fin 43 → EReal
  d1 : Fin 200 → EReal
  v2 : Fin 100 → Fin 200 → EReal
  d2 : Fin 100 → EReal
  v3 : Fin 3 → Fin 100 → EReal
  d3 : Fin 3 → EReal

/-- One point through the three pointwise layers. -/
def phi (Θ : Params) (x : Fin 3 → EReal) : Fin 80 → EReal :=
  layer Θ.w3 Θ.b3 (layer Θ.w2 Θ.b2 (layer Θ.w1 Θ.b1 x))

/-- The 128 points' features added up. -/
def pooled (Θ : Params) (X : Fin 128 → Fin 3 → EReal) : Fin 80 → EReal :=
  fun o => ∑ r, phi Θ (X r) o

/-- The pooled features through the middle network; its last layer is not rectified. -/
def rho (Θ : Params) (p : Fin 80 → EReal) : Fin 40 → EReal :=
  affine Θ.u3 Θ.c3 (layer Θ.u2 Θ.c2 (layer Θ.u1 Θ.c1 p))

/-- Forty numbers followed by three. -/
def joined (r : Fin 40 → EReal) (s : Fin 3 → EReal) : Fin 43 → EReal :=
  fun k => if h : k.val < 40 then r ⟨k.val, h⟩ else s ⟨k.val - 40, by have := k.isLt; omega⟩

/-- The head network on the joined vector; its last layer is not rectified. -/
def head (Θ : Params) (r : Fin 40 → EReal) (s : Fin 3 → EReal) : Fin 3 → EReal :=
  affine Θ.v3 Θ.d3 (layer Θ.v2 Θ.d2 (layer Θ.v1 Θ.d1 (joined r s)))

/-- The three scores of one set `X` with side features `s`. -/
def logits (Θ : Params) (X : Fin 128 → Fin 3 → EReal) (s : Fin 3 → EReal) : Fin 3 → EReal :=
  head Θ (rho Θ (pooled Θ X)) s

/-- The softmax of three scores, shifted by their maximum (itself taken from −∞, twice, as both programs do). -/
def softmax (q : Fin 3 → EReal) : Fin 3 → EReal := fun c =>
  Ideal.div (Ideal.exp (q c - max bottom ((Finset.univ : Finset (Fin 3)).fold max bottom q)))
    (∑ c', Ideal.exp (q c' - max bottom ((Finset.univ : Finset (Fin 3)).fold max bottom q)))

/-- The whole map: one set and its side features to three probabilities. -/
def out (Θ : Params) (X : Fin 128 → Fin 3 → EReal) (s : Fin 3 → EReal) : Fin 3 → EReal :=
  softmax (logits Θ X s)

/-! ## Two rearrangements of sums -/

/-- An affine map of three inputs, spelt as the bias plus the three products one after the other. -/
theorem affine_three {o : ℕ} (W : Fin o → Fin 3 → EReal) (b : Fin o → EReal) (x : Fin 3 → EReal) (c : Fin o) :
    b c + x 0 * W c 0 + x 1 * W c 1 + x 2 * W c 2 = affine W b x c := by
  unfold affine
  rw [Fin.sum_univ_three]
  abel

/-- An inner product with a joined vector is the inner product with its first forty entries plus the one with its
    last three. -/
theorem sum_joined (r : Fin 40 → EReal) (s : Fin 3 → EReal) (w : Fin 43 → EReal) :
    ∑ k, joined r s k * w k
      = (∑ j : Fin 40, r j * w ⟨j.val, by have := j.isLt; omega⟩) + ∑ j : Fin 3, s j * w ⟨40 + j.val, by have := j.isLt; omega⟩ := by
  have e := Fin.sum_univ_add (M := EReal) (a := 40) (b := 3) (fun k : Fin (40 + 3) => joined r s k * w k)
  refine e.trans (congrArg₂ (· + ·) ?_ ?_)
  · refine Finset.sum_congr rfl fun j _ => ?_
    have hj : (Fin.castAdd 3 j).val < 40 := j.isLt
    show joined r s (Fin.castAdd 3 j) * w (Fin.castAdd 3 j) = _
    unfold joined
    rw [dif_pos hj]
    rfl
  · refine Finset.sum_congr rfl fun j _ => ?_
    have hj : ¬ (Fin.natAdd 40 j).val < 40 := by show ¬ (40 + j.val < 40); omega
    show joined r s (Fin.natAdd 40 j) * w (Fin.natAdd 40 j) = _
    unfold joined
    rw [dif_neg hj]
    have e3 : (⟨(Fin.natAdd 40 j).val - 40, by have := j.isLt; show 40 + j.val - 40 < 3; omega⟩ : Fin 3) = j := by
      apply Fin.ext; show 40 + j.val - 40 = j.val; omega
    rw [e3]
    rfl

end Cert.SetNet

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.KLayer.lean ====
/-
  A dense layer as the matrix unit computes it, read at an entry.

  The layer multiplies an n × k matrix of activations by the transpose of an o × k weight matrix (first narrowed to a
  shorter float format, which changes nothing on the extended reals), starting from zeros, and adds the bias, a vector
  of length o repeated over the n rows. At entry (a, c) this is the inner product of row a of the activations with
  row c of the weights, plus b c: the affine map of the specification applied to row a.
-/
import Idealize.ShloMosaic.PureOps.Ideal.Laws
import Idealize.ShloMosaic.Lib.ValueIdx
import Idealize.ShloMosaic.Lib.ValueLayout
import Idealize.ShloMosaic.Lib.Pipeline.Value
import proofs.«138870_j68839735820410_2_alg».proof.Proof.LibPlainMatmul
import proofs.«138870_j68839735820410_2_alg».proof.Proof.Spec

noncomputable section

open scoped BigOperators

namespace Cert.SetNet

open Idealize.ShloMosaic Idealize.ShloMosaic.ValueIdx

/-- A matrix read row by row. -/
def rows {a b : ℕ} (A : (⟨2, ![a, b]⟩ : Shape).Idx → EReal) : Fin a → Fin b → EReal := fun i j => A (ix2 i j)

/-- A vector read entry by entry. -/
def entries {a : ℕ} (v : (⟨1, ![a]⟩ : Shape).Idx → EReal) : Fin a → EReal := fun i => v (ix1 i)

/-- `X · Wᵀ + b` at entry `(a, c)`: the affine map with weights `W` and bias `b` applied to row `a` of `X`. -/
theorem matmul_affine_apply {n k o : ℕ} {φ : FTy}
    (w : DotDims.WF ⟨2, ![n, k]⟩ ⟨2, ![k, o]⟩ ⟨2, ![n, o]⟩ [1] [0] [0] [1] [] [])
    (X : FVec Ideal ⟨2, ![n, k]⟩ φ) (W : FVec Ideal ⟨2, ![o, k]⟩ .f32) (b : FVec Ideal ⟨1, ![o]⟩ .f32)
    (ht : (⟨2, ![o, k]⟩ : Shape).Transposes [1, 0] ⟨2, ![k, o]⟩)
    (hs : (⟨1, ![o]⟩ : Shape).ShapeCasts ⟨2, ![1, o]⟩) (hb : (⟨2, ![1, o]⟩ : Shape).Broadcasts ⟨2, ![n, o]⟩)
    (hlt : FTy.bf16.bits < FTy.f32.bits) (a : Fin n) (c : Fin o) :
    addf (matmul (⟨[1], [0], [0], [1], [], [], w⟩ : DotDims ⟨2, ![n, k]⟩ ⟨2, ![k, o]⟩ ⟨2, ![n, o]⟩) none X
        (transpose ⟨2, ![k, o]⟩ [1, 0] (truncf .bf16 W hlt) ht) (constant (F := Ideal) ⟨2, ![n, o]⟩ .f32 0x00000000#32))
      (broadcastTo ⟨2, ![n, o]⟩ (shapeCast ⟨2, ![1, o]⟩ b hs) hb) (ix2 a c)
      = affine (rows W) (entries b) (fun j => X (ix2 a j)) c := by
  show (matmul (⟨[1], [0], [0], [1], [], [], w⟩ : DotDims ⟨2, ![n, k]⟩ ⟨2, ![k, o]⟩ ⟨2, ![n, o]⟩) none X
        (transpose ⟨2, ![k, o]⟩ [1, 0] (truncf .bf16 W hlt) ht) (constant (F := Ideal) ⟨2, ![n, o]⟩ .f32 0x00000000#32) (ix2 a c) : EReal)
      + broadcastTo ⟨2, ![n, o]⟩ (shapeCast ⟨2, ![1, o]⟩ b hs) hb (ix2 a c) = _
  rw [matmul_plain_zero_apply w none X _ a c, broadcastTo_1b_ab_apply, shapeCast_a_1a_apply]
  unfold affine rows entries
  refine congrArg₂ (· + ·) (Finset.sum_congr rfl fun j _ => ?_) rfl
  rw [transpose_ix2_apply]
  rfl

/-- The same layer followed by the rectifier (the maximum with the constant vector of +0) and a narrowing of the
    float format: the rectified layer of the specification applied to row `a`. -/
theorem matmul_layer_apply {n k o : ℕ} {φ : FTy}
    (w : DotDims.WF ⟨2, ![n, k]⟩ ⟨2, ![k, o]⟩ ⟨2, ![n, o]⟩ [1] [0] [0] [1] [] [])
    (X : FVec Ideal ⟨2, ![n, k]⟩ φ) (W : FVec Ideal ⟨2, ![o, k]⟩ .f32) (b : FVec Ideal ⟨1, ![o]⟩ .f32)
    (ht : (⟨2, ![o, k]⟩ : Shape).Transposes [1, 0] ⟨2, ![k, o]⟩)
    (hs : (⟨1, ![o]⟩ : Shape).ShapeCasts ⟨2, ![1, o]⟩) (hb : (⟨2, ![1, o]⟩ : Shape).Broadcasts ⟨2, ![n, o]⟩)
    (hlt : FTy.bf16.bits < FTy.f32.bits) (a : Fin n) (c : Fin o) :
    maximumf (addf (matmul (⟨[1], [0], [0], [1], [], [], w⟩ : DotDims ⟨2, ![n, k]⟩ ⟨2, ![k, o]⟩ ⟨2, ![n, o]⟩) none X
        (transpose ⟨2, ![k, o]⟩ [1, 0] (truncf .bf16 W hlt) ht) (constant (F := Ideal) ⟨2, ![n, o]⟩ .f32 0x00000000#32))
      (broadcastTo ⟨2, ![n, o]⟩ (shapeCast ⟨2, ![1, o]⟩ b hs) hb))
      (broadcast ⟨2, ![n, o]⟩ (Scalar.ofBits (F := Ideal) .f32 0x00000000#32)) (ix2 a c)
      = layer (rows W) (entries b) (fun j => X (ix2 a j)) c :=
  congrArg (fun v : EReal => max v floor0) (matmul_affine_apply w X W b ht hs hb hlt a c)

end Cert.SetNet

end
-- ==== Proof.LibFlattenCasts.lean ====
import Idealize.ShloMosaic.Lib.Pipeline.Value
import Idealize.ShloMosaic.Lib.ValueIdx

/-!
# Shape casts that merge, split or drop axes, read at an index given by coordinates

A rank-3 array `[a, b, c]` viewed as the matrix `[a·b, c]` (its two leading axes merged) and back, an `[a, 1, b]`
array viewed as the matrix `[a, b]` (its middle unit axis dropped), and a vector `[a]` viewed as `[1, 1, a]`: each
reads the operand at the index with the same row-major position. These are the forms a batched matrix product
`x.reshape(a·b, c) @ w`, reshaped back, and a bias `v[None, None, :]` are spelt with.
-/

namespace Idealize.ShloMosaic.ValueIdx

open Idealize.ShloMosaic

variable {α : Type}

/-- An `[a, b, c]` array cast to `[n, c]` reads, at `(R, j)` with `R = p·b + r`, the operand at `(p, r, j)`: both sit at
    row-major position `(p·b + r)·c + j`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (r : Fin b) (j : Fin c) (R : Fin n)
    (hR : R.val = p.val * b + r.val) :
    shapeCast ⟨2, ![n, c]⟩ x h (ix2 R j) = x (ix3 p r j) :=
  shapeCast_apply x h _ _ (by
    rw [Shape.rowMajor_val_three, Shape.rowMajor_val_two]
    show (p.val * b + r.val) * c + j.val = R.val * c + j.val
    rw [hR])

/-- An `[n, c]` matrix cast to `[a, b, c]` reads, at `(p, r, j)`, the operand at `(R, j)` with `R = p·b + r`. -/
theorem shapeCast_nc_abc_apply {a b c n : ℕ} (x : (⟨2, ![n, c]⟩ : Shape).Idx → α)
    (h : (⟨2, ![n, c]⟩ : Shape).ShapeCasts ⟨3, ![a, b, c]⟩) (p : Fin a) (r : Fin b) (j : Fin c) (R : Fin n)
    (hR : R.val = p.val * b + r.val) :
    shapeCast ⟨3, ![a, b, c]⟩ x h (ix3 p r j) = x (ix2 R j) :=
  shapeCast_apply x h _ _ (by
    rw [Shape.rowMajor_val_three, Shape.rowMajor_val_two]
    show R.val * c + j.val = (p.val * b + r.val) * c + j.val
    rw [hR])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A vector `[a]` cast to `[1, 1, a]` reads, at `(u, w, j)`, the operand at `j`. -/
theorem shapeCast_a_11a_apply {a : ℕ} (x : (⟨1, ![a]⟩ : Shape).Idx → α)
    (h : (⟨1, ![a]⟩ : Shape).ShapeCasts ⟨3, ![1, 1, a]⟩) (u w : Fin 1) (j : Fin a) :
    shapeCast ⟨3, ![1, 1, a]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * a + j.val
    rw [hu, hw]
    simp)

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.K1.lean ====
/-
  The first two pointwise layers as the kernel computes them on one block of 64 sets, read at an entry.

  The block's 64 × 128 points are laid out as 8192 rows of three coordinates; row R = p · 128 + r is point r of set p.
  The first layer is spelt without a matrix product: the bias row plus, one after the other, the three products of a
  coordinate column (repeated over the 120 outputs) with a row of the transposed weights (repeated over the rows) —
  the affine map of three inputs with its sum written out. The second layer is a dense layer on the matrix unit.
-/
import Idealize.ShloMosaic.PureOps.Ideal.Laws
import Idealize.ShloMosaic.Lib.ValueIdx
import Idealize.ShloMosaic.Lib.ValueLayout
import Idealize.ShloMosaic.Lib.Pipeline.Value
import proofs.«138870_j68839735820410_2_alg».proof.Proof.Gen.KernelIdeal.Skeleton
import proofs.«138870_j68839735820410_2_alg».proof.Proof.Spec
import proofs.«138870_j68839735820410_2_alg».proof.Proof.KLayer
import proofs.«138870_j68839735820410_2_alg».proof.Proof.LibFlattenCasts
import proofs.«138870_j68839735820410_2_alg».proof.Proof.LibColumnBroadcast

noncomputable section

open scoped BigOperators

namespace Cert.SetNet

open Idealize.ShloMosaic Idealize.ShloMosaic.ValueIdx Cert.KernelIdeal Cert.KernelIdeal.Gen

/-- The first layer's weights as the kernel is handed them: transposed, a 3 × 120 matrix. -/
def colsOf (A : S3x120.Idx → EReal) : Fin 120 → Fin 3 → EReal := fun o i => A (ix2 i o)

/-- Entry `(R, c)` of the second layer's output, for row `R = p · 128 + r`: the two rectified layers applied to point
    `r` of set `p`. -/
theorem pay2_apply (P0 : Vec Ideal S64x128x3 .f32) (P1 : Vec Ideal S3x120 .f32) (P2 : Vec Ideal S120 .f32)
    (P3 : Vec Ideal S100x120 .f32) (P4 : Vec Ideal S100 .f32) (p : Fin 64) (r : Fin 128) (R : Fin 8192)
    (hR : R.val = p.val * 128 + r.val) (c : Fin 100) :
    k0_pay2 (F := Ideal) P0 P1 P2 P3 P4 (ix2 R c)
      = layer (rows P3) (entries P4) (layer (colsOf P1) (entries P2) (fun i => P0 (ix3 p r i))) c := by
  unfold k0_pay2
  dsimp only
  refine (matmul_layer_apply dot_S8192x120_S120x100_S8192x100_1_0_0_1_n_n.wf _ P3 P4 _ _ _ _ R c).trans ?_
  refine congrArg (fun x => layer (rows P3) (entries P4) x c) (funext fun j => ?_)
  refine congrArg (fun v : EReal => max v floor0) ?_
  refine Eq.trans ?_ (affine_three (colsOf P1) (entries P2) (fun i => P0 (ix3 p r i)) j)
  refine congrArg₂ (· + ·) (congrArg₂ (· + ·) (congrArg₂ (· + ·) ?_ (congrArg₂ (· * ·) ?_ ?_))
    (congrArg₂ (· * ·) ?_ ?_)) (congrArg₂ (· * ·) ?_ ?_)
  · exact (broadcastTo_1b_ab_apply _ _ R j).trans (shapeCast_a_1a_apply _ _ 0 j)
  · exact (broadcastTo_a1_ab_apply _ _ R j).trans
      ((slice2_axis1_apply 0 _ _ R (0 : Fin 1) (0 : Fin 3) rfl).trans (shapeCast_abc_nc_apply _ _ p r 0 R hR))
  · exact (broadcastTo_1b_ab_apply _ _ R j).trans
      ((slice2_axis0_apply 0 _ _ (0 : Fin 1) j (0 : Fin 3) rfl).trans (congrFun (shapeCast_self P1 _) _))
  · exact (broadcastTo_a1_ab_apply _ _ R j).trans
      ((slice2_axis1_apply 1 _ _ R (0 : Fin 1) (1 : Fin 3) rfl).trans (shapeCast_abc_nc_apply _ _ p r 1 R hR))
  · exact (broadcastTo_1b_ab_apply _ _ R j).trans
      ((slice2_axis0_apply 1 _ _ (0 : Fin 1) j (1 : Fin 3) rfl).trans (congrFun (shapeCast_self P1 _) _))
  · exact (broadcastTo_a1_ab_apply _ _ R j).trans
      ((slice2_axis1_apply 2 _ _ R (0 : Fin 1) (2 : Fin 3) rfl).trans (shapeCast_abc_nc_apply _ _ p r 2 R hR))
  · exact (broadcastTo_1b_ab_apply _ _ R j).trans
      ((slice2_axis0_apply 2 _ _ (0 : Fin 1) j (2 : Fin 3) rfl).trans (congrFun (shapeCast_self P1 _) _))

end Cert.SetNet

end
-- ==== Proof.LibMiddleAxis.lean ====
/-
  The middle axis of a rank-3 array.

  Two readings at an index given by coordinates. (1) Summing an [a, b, c] array over its middle axis leaves an [a, c]
  matrix whose entry (i, l) is the sum over the b middle coordinates d of the entries (i, d, l). (2) Regrouping the two
  inner axes of an [a, b₂, c] array as [a, b, c₂] (with b₂ · c = b · c₂) keeps every entry at its row-major position: inside
  row n, the entry at inner position d · c + e of the source is the entry at inner position d' · c₂ + l of the result.
-/
import Idealize.ShloMosaic.PureOps.Ideal.Laws
import Idealize.ShloMosaic.Lib.ValueIdx
import Idealize.ShloMosaic.Lib.Pipeline.Value

open scoped BigOperators

namespace Idealize.ShloMosaic.ValueIdx

open Idealize.ShloMosaic

/-- Inserting coordinate `k` on axis 1 over the matrix index `(i, l)` gives the rank-3 index `(i, k, l)`. -/
theorem reduces_middle_lift {a b c : ℕ} (h : (⟨3, ![a, b, c]⟩ : Shape).Reduces [1] ⟨2, ![a, c]⟩) (i : Fin a) (l : Fin c)
    (k : Fin b) : h.lift (ix2 i l) k = ix3 i k l := by
  funext ax; apply Fin.ext
  show h.liftVal (ix2 i l) k.val ax = (ix3 i k l ax).val
  unfold Shape.Reduces.liftVal
  match ax with
  | ⟨0, _⟩ => rfl
  | ⟨1, _⟩ => rfl
  | ⟨2, _⟩ => rfl

/-- The sum of an `[a, b, c]` array over axis 1, at the exact extended reals, read at `(i, l)`: `∑ d, src (i, d, l)`. -/
theorem multiReduction_add_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction .add [1] ⟨2, ![a, c]⟩ src acc h hφ hacc (ix2 i l) = ∑ d : Fin b, src (ix3 i d l) := by
  refine (Ideal.multiReduction_add_single src acc h hφ hacc (ix2 i l)).trans ?_
  exact Finset.sum_congr rfl fun d _ => congrArg src (reduces_middle_lift h i l d)

variable {α : Type}

/-- An `[a, b₂, c]` array regrouped as `[a, b, c₂]` reads, at `(n, d', l)`, the operand at `(n, d, e)` whenever the two
    inner positions agree, `d · c + e = d' · c₂ + l`. -/
theorem shapeCast_regroup_inner_apply {a b₂ c b c₂ : ℕ} (x : (⟨3, ![a, b₂, c]⟩ : Shape).Idx → α)
    (h : (⟨3, ![a, b₂, c]⟩ : Shape).ShapeCasts ⟨3, ![a, b, c₂]⟩) (hbc : b₂ * c = b * c₂)
    (n : Fin a) (d : Fin b₂) (e : Fin c) (d' : Fin b) (l : Fin c₂) (hk : d.val * c + e.val = d'.val * c₂ + l.val) :
    shapeCast ⟨3, ![a, b, c₂]⟩ x h (ix3 n d' l) = x (ix3 n d e) :=
  shapeCast_apply x h _ _ (by
    rw [Shape.rowMajor_val_three, Shape.rowMajor_val_three]
    show (n.val * b₂ + d.val) * c + e.val = (n.val * b + d'.val) * c₂ + l.val
    have e1 : (n.val * b₂ + d.val) * c + e.val = n.val * (b₂ * c) + (d.val * c + e.val) := by ring
    rw [e1, hbc, hk]; ring)

end Idealize.ShloMosaic.ValueIdx
-- ==== Proof.K2.lean ====
/-
  The third pointwise layer, the sum over a set's 128 points, and the middle network, as the kernel computes them on one
  block of 64 sets, read at an entry.

  The third layer is a dense layer on the 8192 rows; its output is regrouped as 64 × 128 × 80 and added up over the
  middle axis, so entry (p, o) of the pooled matrix is the sum over the 128 points r of row p · 128 + r at column o.
  Three dense layers follow on the 64 pooled rows, the last one without a rectifier.
-/
import Idealize.ShloMosaic.PureOps.Ideal.Laws
import Idealize.ShloMosaic.Lib.ValueIdx
import Idealize.ShloMosaic.Lib.ValueLayout
import Idealize.ShloMosaic.Lib.Pipeline.Value
import proofs.«138870_j68839735820410_2_alg».proof.Proof.Gen.KernelIdeal.Skeleton
import proofs.«138870_j68839735820410_2_alg».proof.Proof.Spec
import proofs.«138870_j68839735820410_2_alg».proof.Proof.KLayer
import proofs.«138870_j68839735820410_2_alg».proof.Proof.LibFlattenCasts
import proofs.«138870_j68839735820410_2_alg».proof.Proof.LibMiddleAxis

noncomputable section

open scoped BigOperators

namespace Cert.SetNet

open Idealize.ShloMosaic Idealize.ShloMosaic.ValueIdx Cert.KernelIdeal Cert.KernelIdeal.Gen

/-- Row `p · 128 + r` of the 8192-row layout: point `r` of set `p`. -/
def rowOf (p : Fin 64) (r : Fin 128) : Fin 8192 := ⟨p.val * 128 + r.val, by have := p.isLt; have := r.isLt; omega⟩

/-- Entry `(p, c)` of the middle network's output on the block: the middle network applied to the sum, over the 128
    points of set `p`, of the third layer's output on that point's row of `A`. -/
theorem pay4_apply (A : FVec Ideal S8192x100 .bf16) (P5 : Vec Ideal S80 .f32) (P6 : Vec Ideal S80x100 .f32)
    (P7 : Vec Ideal S60x80 .f32) (P8 : Vec Ideal S60 .f32) (P9 : Vec Ideal S60x60 .f32) (P10 : Vec Ideal S60 .f32)
    (P11 : Vec Ideal S40x60 .f32) (P12 : Vec Ideal S40 .f32) (p : Fin 64) (c : Fin 40) :
    k0_pay4 (F := Ideal) A P5 (transpose S100x80 [1, 0] (truncf .bf16 P6 bitsLt_bf16_f32) transposes_S80x100_p1_0_S100x80)
        (constant S8192x80 .f32 0x00000000#32) P7 P8 P9 P10 P11 P12 (ix2 p c)
      = affine (rows P11) (entries P12) (layer (rows P9) (entries P10) (layer (rows P7) (entries P8)
          (fun o => ∑ r : Fin 128, layer (rows P6) (entries P5) (fun j => A (ix2 (rowOf p r) j)) o))) c := by
  unfold k0_pay4
  dsimp only
  refine (matmul_affine_apply dot_S64x60_S60x40_S64x40_1_0_0_1_n_n.wf _ P11 P12 _ _ _ _ p c).trans ?_
  refine congrArg (fun x => affine (rows P11) (entries P12) x c) (funext fun j2 => ?_)
  refine (matmul_layer_apply dot_S64x60_S60x60_S64x60_1_0_0_1_n_n.wf _ P9 P10 _ _ _ _ p j2).trans ?_
  refine congrArg (fun x => layer (rows P9) (entries P10) x j2) (funext fun j1 => ?_)
  refine (matmul_layer_apply dot_S64x80_S80x60_S64x60_1_0_0_1_n_n.wf _ P7 P8 _ _ _ _ p j1).trans ?_
  refine congrArg (fun x => layer (rows P7) (entries P8) x j1) (funext fun o => ?_)
  rw [truncf_apply]
  refine (multiReduction_add_middle_apply _ _ _ _ _ p o).trans ?_
  refine Finset.sum_congr rfl fun r _ => ?_
  refine (shapeCast_nc_abc_apply _ _ p r o (rowOf p r) rfl).trans ?_
  exact matmul_layer_apply dot_S8192x100_S100x80_S8192x80_1_0_0_1_n_n.wf A P6 P5 _ _ _ _ (rowOf p r) o

end Cert.SetNet

end
-- ==== Proof.K3.lean ====
/-
  The head network as the kernel computes it on one block of 64 sets, read at an entry.

  The kernel never joins the 40 middle features with the 3 side features. Its first head layer multiplies the 40
  features by the first 40 columns of the weights and the 3 side features by the last 3 columns, separately, and adds
  the two products and then the bias; an inner product with the joined vector is exactly the sum of those two inner
  products. Two dense layers follow, the last one without a rectifier.
-/
import Idealize.ShloMosaic.PureOps.Ideal.Laws
import Idealize.ShloMosaic.Lib.ValueIdx
import Idealize.ShloMosaic.Lib.ValueLayout
import Idealize.ShloMosaic.Lib.Pipeline.Value
import proofs.«138870_j68839735820410_2_alg».proof.Proof.Gen.KernelIdeal.Skeleton
import proofs.«138870_j68839735820410_2_alg».proof.Proof.Spec
import proofs.«138870_j68839735820410_2_alg».proof.Proof.KLayer
import proofs.«138870_j68839735820410_2_alg».proof.Proof.LibPlainMatmul

noncomputable section

open scoped BigOperators

namespace Cert.SetNet

open Idealize.ShloMosaic Idealize.ShloMosaic.ValueIdx Cert.KernelIdeal Cert.KernelIdeal.Gen

/-- A 200 × 40 matrix and a 200 × 3 matrix side by side, read row by row as 200 rows of 43 entries. -/
def joinCols (A : S200x40.Idx → EReal) (B : S200x3.Idx → EReal) : Fin 200 → Fin 43 → EReal :=
  fun o k => if h : k.val < 40 then A (ix2 o ⟨k.val, h⟩) else B (ix2 o ⟨k.val - 40, by have := k.isLt; omega⟩)

/-- Entry `(p, c)` of the head network's output on the block: the head network with the two weight pieces side by
    side, applied to row `p` of the middle features joined with row `p` of the side features. -/
theorem pay6_apply (B : FVec Ideal S64x40 .bf16) (S : FVec Ideal S64x3 .bf16) (P14 : Vec Ideal S200x40 .f32)
    (P15 : Vec Ideal S200x3 .f32) (P16 : Vec Ideal S200 .f32) (P17 : Vec Ideal S100x200 .f32) (P18 : Vec Ideal S100 .f32)
    (P19 : Vec Ideal S3x100 .f32) (P20 : Vec Ideal S3 .f32) (p : Fin 64) (c : Fin 3) :
    k0_pay6 (F := Ideal) B S P14 P15 P16 P17 P18 P19 P20 (ix2 p c)
      = affine (rows P19) (entries P20) (layer (rows P17) (entries P18) (layer (joinCols P14 P15) (entries P16)
          (joined (fun k => B (ix2 p k)) (fun k => S (ix2 p k))))) c := by
  unfold k0_pay6
  dsimp only
  refine (matmul_affine_apply dot_S64x100_S100x3_S64x3_1_0_0_1_n_n.wf _ P19 P20 _ _ _ _ p c).trans ?_
  refine congrArg (fun x => affine (rows P19) (entries P20) x c) (funext fun j2 => ?_)
  refine (matmul_layer_apply dot_S64x200_S200x100_S64x100_1_0_0_1_n_n.wf _ P17 P18 _ _ _ _ p j2).trans ?_
  refine congrArg (fun x => layer (rows P17) (entries P18) x j2) (funext fun o => ?_)
  refine congrArg (fun v : EReal => max v floor0) ?_
  unfold affine
  refine congrArg₂ (· + ·) ?_ ((broadcastTo_1b_ab_apply _ _ p o).trans (shapeCast_a_1a_apply _ _ 0 o))
  refine Eq.trans ?_ (sum_joined (fun k => B (ix2 p k)) (fun k => S (ix2 p k)) (joinCols P14 P15 o)).symm
  refine congrArg₂ (· + ·) ?_ ?_
  · refine (matmul_plain_zero_apply dot_S64x40_S40x200_S64x200_1_0_0_1_n_n.wf none B _ p o).trans ?_
    refine Finset.sum_congr rfl fun j _ => congrArg (fun w => B (ix2 p j) * w) ?_
    refine (transpose_ix2_apply _ _ j o).trans ?_
    refine (congrFun (shapeCast_self P14 _) (ix2 o j)).trans ?_
    unfold joinCols
    rw [dif_pos (show ((⟨j.val, by have := j.isLt; omega⟩ : Fin 43)).val < 40 from j.isLt)]
  · refine (matmul_plain_zero_apply dot_S64x3_S3x200_S64x200_1_0_0_1_n_n.wf none S _ p o).trans ?_
    refine Finset.sum_congr rfl fun j _ => congrArg (fun w => S (ix2 p j) * w) ?_
    refine (transpose_ix2_apply _ _ j o).trans ?_
    refine (congrFun (shapeCast_self P15 _) (ix2 o j)).trans ?_
    unfold joinCols
    rw [dif_neg (show ¬ ((⟨40 + j.val, by have := j.isLt; omega⟩ : Fin 43)).val < 40 by show ¬ (40 + j.val < 40); omega)]
    exact congrArg (fun k : Fin 3 => P15 (ix2 o k)) (Fin.ext (by show j.val = 40 + j.val - 40; omega))

end Cert.SetNet

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«138870_j68839735820410_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.KSoftmax.lean ====
/-
  The softmax over the three scores of each of a block's 64 sets, as the kernel computes it, read at an entry.

  For row a: the maximum of the row's three scores is taken from −∞, and once more against −∞; each score minus that
  maximum is exponentiated; the three exponentials are added up; and each exponential is divided by the sum. The
  maximum and the sum are reductions along the row, read as a fold of max and as a sum over the three columns.
-/
import Idealize.ShloMosaic.PureOps.Ideal.Laws
import Idealize.ShloMosaic.Lib.ValueIdx
import Idealize.ShloMosaic.Lib.ValueLayout
import Idealize.ShloMosaic.Lib.Pipeline.Value
import proofs.«138870_j68839735820410_2_alg».proof.Proof.Gen.KernelIdeal
import proofs.«138870_j68839735820410_2_alg».proof.Proof.Spec
import proofs.«138870_j68839735820410_2_alg».proof.Proof.LibLaneSum
import proofs.«138870_j68839735820410_2_alg».proof.Proof.LibLaneMax
import proofs.«138870_j68839735820410_2_alg».proof.Proof.LibColumnBroadcast
import proofs.«138870_j68839735820410_2_alg».proof.Proof.LibColumnCast

noncomputable section

open scoped BigOperators

namespace Cert.SetNet

open Idealize.ShloMosaic Idealize.ShloMosaic.ValueIdx Cert.KernelIdeal

/-- The kernel's softmax of a 64 × 3 matrix of scores at entry `(a, c)` is the softmax of row `a` at `c`. The three
    indices are those the scores, the row maxima and the row sums are read at; all name row `a`. -/
theorem softmax_rows (Q : FVec Ideal S64x3 .f32) (a : Fin 64) (c : Fin 3) (y0 : S64x3.Idx) (y1 y2 : S64.Idx)
    (h0 : y0 = ix2 a c) (h1 : y1 = ix1 a) (h2 : y2 = ix1 a)
    (hr : S64x3.Reduces [1] S64) (hs : S64.ShapeCasts S64x1) (hb : S64x1.Broadcasts S64x3) :
    FloatOps.divf (FloatOps.exp (FloatOps.subf (Q y0) (FloatOps.maximumf (Scalar.ofBits .f32 0xFF800000#32)
        (multiReduction .maximumf [1] S64 Q 0xFF800000#32 hr (.inl rfl) rfl y1))))
      (multiReduction .add [1] S64 (exp (subf Q (broadcastTo S64x3 (shapeCast S64x1 (maximumf
        (broadcast S64 (Scalar.ofBits .f32 0xFF800000#32))
        (multiReduction .maximumf [1] S64 Q 0xFF800000#32 hr (.inl rfl) rfl)) hs)
        hb))) 0x00000000#32 hr (.inl rfl) rfl y2)
      = softmax (fun c' => Q (ix2 a c')) c := by
  subst h0 h1 h2
  have hm : multiReduction .maximumf [1] S64 Q 0xFF800000#32 hr (.inl rfl) rfl (ix1 a)
      = (Finset.univ : Finset (Fin 3)).fold max bottom (fun c' => Q (ix2 a c')) :=
    multiReduction_maximumf_rows_apply Q _ _ _ _ a
  unfold softmax
  refine congrArg₂ Ideal.div (congrArg Ideal.exp (congrArg (fun v : EReal => Q (ix2 a c) - max bottom v) hm)) ?_
  refine (multiReduction_add_rows_apply _ _ _ _ _ a).trans (Finset.sum_congr rfl fun c' _ => ?_)
  refine congrArg Ideal.exp (congrArg (fun v : EReal => Q (ix2 a c') - v) ?_)
  refine (broadcastTo_a1_ab_apply _ _ a c').trans ((shapeCast_a_a1_apply _ _ a 0).trans ?_)
  exact congrArg (fun v : EReal => max bottom v) hm

end Cert.SetNet

end
-- ==== Proof.KBlock.lean ====
/-
  What the kernel leaves in one block of its output: row a of the block holds the three probabilities of set a of
  the block — the whole map of the specification applied to the set's 128 points and its three side features, with
  the weights as the block's operands hold them (the first layer's transposed, the first head layer's in two pieces).
-/
import Idealize.ShloMosaic.PureOps.Ideal.Laws
import Idealize.ShloMosaic.Lib.ValueIdx
import Idealize.ShloMosaic.Lib.ValueLayout
import Idealize.ShloMosaic.Lib.Pipeline.Value
import proofs.«138870_j68839735820410_2_alg».proof.Proof.Gen.KernelIdeal.Value
import proofs.«138870_j68839735820410_2_alg».proof.Proof.Spec
import proofs.«138870_j68839735820410_2_alg».proof.Proof.KLayer
import proofs.«138870_j68839735820410_2_alg».proof.Proof.K1
import proofs.«138870_j68839735820410_2_alg».proof.Proof.K2
import proofs.«138870_j68839735820410_2_alg».proof.Proof.K3
import proofs.«138870_j68839735820410_2_alg».proof.Proof.KSoftmax

noncomputable section

open scoped BigOperators

namespace Cert.SetNet

open Idealize.ShloMosaic Idealize.ShloMosaic.ValueIdx Cert.KernelIdeal Cert.KernelIdeal.Gen Cert.KernelIdeal.Value

/-- The nine layers' parameters read off the kernel's operands. -/
def blockParams (P1 : Vec Ideal S3x120 .f32) (P2 : Vec Ideal S120 .f32) (P3 : Vec Ideal S100x120 .f32)
    (P4 : Vec Ideal S100 .f32) (P5 : Vec Ideal S80 .f32) (P6 : Vec Ideal S80x100 .f32) (P7 : Vec Ideal S60x80 .f32)
    (P8 : Vec Ideal S60 .f32) (P9 : Vec Ideal S60x60 .f32) (P10 : Vec Ideal S60 .f32) (P11 : Vec Ideal S40x60 .f32)
    (P12 : Vec Ideal S40 .f32) (P14 : Vec Ideal S200x40 .f32) (P15 : Vec Ideal S200x3 .f32)
    (P16 : Vec Ideal S200 .f32) (P17 : Vec Ideal S100x200 .f32) (P18 : Vec Ideal S100 .f32) (P19 : Vec Ideal S3x100 .f32)
    (P20 : Vec Ideal S3 .f32) : Params where
  w1 := colsOf P1
  b1 := entries P2
  w2 := rows P3
  b2 := entries P4
  w3 := rows P6
  b3 := entries P5
  u1 := rows P7
  c1 := entries P8
  u2 := rows P9
  c2 := entries P10
  u3 := rows P11
  c3 := entries P12
  v1 := joinCols P14 P15
  d1 := entries P16
  v2 := rows P17
  d2 := entries P18
  v3 := rows P19
  d3 := entries P20

/-- Entry `(a, c)` of the block the kernel's body leaves: probability `c` of set `a`. -/
theorem block_apply (P0 : Vec Ideal S64x128x3 .f32) (P1 : Vec Ideal S3x120 .f32) (P2 : Vec Ideal S120 .f32) (P3 : Vec Ideal S100x120 .f32)
    (P4 : Vec Ideal S100 .f32) (P5 : Vec Ideal S80 .f32) (P6 : Vec Ideal S80x100 .f32) (P7 : Vec Ideal S60x80 .f32)
    (P8 : Vec Ideal S60 .f32) (P9 : Vec Ideal S60x60 .f32) (P10 : Vec Ideal S60 .f32) (P11 : Vec Ideal S40x60 .f32)
    (P12 : Vec Ideal S40 .f32) (P13 : Vec Ideal S64x3 .f32) (P14 : Vec Ideal S200x40 .f32) (P15 : Vec Ideal S200x3 .f32)
    (P16 : Vec Ideal S200 .f32) (P17 : Vec Ideal S100x200 .f32) (P18 : Vec Ideal S100 .f32) (P19 : Vec Ideal S3x100 .f32)
    (P20 : Vec Ideal S3 .f32) (a : Fin 64) (c : Fin 3) :
    E21 (F := Ideal) P0 P1 P2 P3 P4 P5 P6 P7 P8 P9 P10 P11 P12 P13 P14 P15 P16 P17 P18 P19 P20 (ix2 a c)
      = out (blockParams P1 P2 P3 P4 P5 P6 P7 P8 P9 P10 P11 P12 P14 P15 P16 P17 P18 P19 P20) (fun r i => P0 (ix3 a r i)) (fun k => P13 (ix2 a k)) c := by
  refine (softmax_rows _ a c _ _ _ ?_ ?_ ?_ _ _ _).trans ?_
  · funext ax; match ax with
    | ⟨0, _⟩ => rfl
    | ⟨1, _⟩ => rfl
  · funext ax; match ax with
    | ⟨0, _⟩ => rfl
  · funext ax; match ax with
    | ⟨0, _⟩ => rfl
  unfold out
  refine congrArg (fun q => softmax q c) (funext fun c' => ?_)
  refine (pay6_apply _ _ P14 P15 P16 P17 P18 P19 P20 a c').trans ?_
  refine congrArg (fun r => affine (rows P19) (entries P20) (layer (rows P17) (entries P18)
    (layer (joinCols P14 P15) (entries P16) (joined r (fun k => P13 (ix2 a k))))) c') (funext fun k => ?_)
  refine (pay4_apply _ P5 P6 P7 P8 P9 P10 P11 P12 a k).trans ?_
  refine congrArg (fun pl => affine (rows P11) (entries P12) (layer (rows P9) (entries P10)
    (layer (rows P7) (entries P8) pl)) k) (funext fun o => Finset.sum_congr rfl fun r _ => ?_)
  refine congrArg (fun x => layer (rows P6) (entries P5) x o) (funext fun j => ?_)
  exact pay2_apply P0 P1 P2 P3 P4 a r (rowOf a r) rfl j

/-- The same at an index of the block given as a whole. -/
theorem block_apply_idx (P0 : Vec Ideal S64x128x3 .f32) (P1 : Vec Ideal S3x120 .f32) (P2 : Vec Ideal S120 .f32) (P3 : Vec Ideal S100x120 .f32)
    (P4 : Vec Ideal S100 .f32) (P5 : Vec Ideal S80 .f32) (P6 : Vec Ideal S80x100 .f32) (P7 : Vec Ideal S60x80 .f32)
    (P8 : Vec Ideal S60 .f32) (P9 : Vec Ideal S60x60 .f32) (P10 : Vec Ideal S60 .f32) (P11 : Vec Ideal S40x60 .f32)
    (P12 : Vec Ideal S40 .f32) (P13 : Vec Ideal S64x3 .f32) (P14 : Vec Ideal S200x40 .f32) (P15 : Vec Ideal S200x3 .f32)
    (P16 : Vec Ideal S200 .f32) (P17 : Vec Ideal S100x200 .f32) (P18 : Vec Ideal S100 .f32) (P19 : Vec Ideal S3x100 .f32)
    (P20 : Vec Ideal S3 .f32) (y : S64x3.Idx) :
    E21 (F := Ideal) P0 P1 P2 P3 P4 P5 P6 P7 P8 P9 P10 P11 P12 P13 P14 P15 P16 P17 P18 P19 P20 y
      = out (blockParams P1 P2 P3 P4 P5 P6 P7 P8 P9 P10 P11 P12 P14 P15 P16 P17 P18 P19 P20) (fun r i => P0 (ix3 (y 0) r i)) (fun k => P13 (ix2 (y 0) k)) (y 1) := by
  obtain ⟨a, c, rfl⟩ : ∃ (a : Fin 64) (c : Fin 3), y = ix2 a c := ⟨y 0, y 1, eq_ix2 y⟩
  exact block_apply P0 P1 P2 P3 P4 P5 P6 P7 P8 P9 P10 P11 P12 P13 P14 P15 P16 P17 P18 P19 P20 a c

end Cert.SetNet

end
-- ==== Proof.Whole.lean ====
/-
  The result array as ONE function of the argument arrays.

  Row b of the result holds the three probabilities of set b: the specification's map applied to the 128 points
  `dyn[b, ·, ·]` and the side features `static[b, ·]`, with every weight matrix read row by row and every bias entry
  by entry off its argument array.
-/
import Idealize.ShloMosaic.Lib.ValueIdx
import proofs.«138870_j68839735820410_2_alg».proof.Proof.Spec
import proofs.«138870_j68839735820410_2_alg».proof.Proof.KLayer

noncomputable section

namespace Cert.SetNet

open Idealize.ShloMosaic Idealize.ShloMosaic.ValueIdx

/-- The nine layers' parameters read off the eighteen weight and bias arrays. -/
def arrayParams (a2 : (⟨2, ![120, 3]⟩ : Shape).Idx → EReal) (a3 : (⟨1, ![120]⟩ : Shape).Idx → EReal)
    (a4 : (⟨2, ![100, 120]⟩ : Shape).Idx → EReal) (a5 : (⟨1, ![100]⟩ : Shape).Idx → EReal)
    (a6 : (⟨2, ![80, 100]⟩ : Shape).Idx → EReal) (a7 : (⟨1, ![80]⟩ : Shape).Idx → EReal)
    (a8 : (⟨2, ![60, 80]⟩ : Shape).Idx → EReal) (a9 : (⟨1, ![60]⟩ : Shape).Idx → EReal)
    (a10 : (⟨2, ![60, 60]⟩ : Shape).Idx → EReal) (a11 : (⟨1, ![60]⟩ : Shape).Idx → EReal)
    (a12 : (⟨2, ![40, 60]⟩ : Shape).Idx → EReal) (a13 : (⟨1, ![40]⟩ : Shape).Idx → EReal)
    (a14 : (⟨2, ![200, 43]⟩ : Shape).Idx → EReal) (a15 : (⟨1, ![200]⟩ : Shape).Idx → EReal)
    (a16 : (⟨2, ![100, 200]⟩ : Shape).Idx → EReal) (a17 : (⟨1, ![100]⟩ : Shape).Idx → EReal)
    (a18 : (⟨2, ![3, 100]⟩ : Shape).Idx → EReal) (a19 : (⟨1, ![3]⟩ : Shape).Idx → EReal) : Params where
  w1 := rows a2
  b1 := entries a3
  w2 := rows a4
  b2 := entries a5
  w3 := rows a6
  b3 := entries a7
  u1 := rows a8
  c1 := entries a9
  u2 := rows a10
  c2 := entries a11
  u3 := rows a12
  c3 := entries a13
  v1 := rows a14
  d1 := entries a15
  v2 := rows a16
  d2 := entries a17
  v3 := rows a18
  d3 := entries a19

/-- The result array of 2048 rows of three probabilities. -/
def result (a0 : (⟨3, ![2048, 128, 3]⟩ : Shape).Idx → EReal) (a1 : (⟨2, ![2048, 3]⟩ : Shape).Idx → EReal) (Θ : Params) :
    (⟨2, ![2048, 3]⟩ : Shape).Idx → EReal :=
  fun i => out Θ (fun r k => a0 (ix3 ⟨(i 0).val, (i 0).isLt⟩ r k)) (fun k => a1 (ix2 ⟨(i 0).val, (i 0).isLt⟩ k))
    ⟨(i 1).val, (i 1).isLt⟩

/-- Two applications of the whole map agree when their four arguments do. -/
theorem out_congr {Θ Θ' : Params} {X X' : Fin 128 → Fin 3 → EReal} {s s' : Fin 3 → EReal} {k k' : Fin 3}
    (hΘ : Θ = Θ') (hX : X = X') (hs : s = s') (hk : k = k') : out Θ X s k = out Θ' X' s' k' := by
  subst hΘ hX hs hk; rfl

end Cert.SetNet

end
-- ==== Proof.KArray.lean ====
/-
  From the kernel's blocks to its result array.

  The kernel runs over 32 grid points; point t is handed rows 64·t … 64·t + 63 of the points array and of the side
  features, and every weight and bias array whole (the first layer's weights transposed beforehand and the first head
  layer's cut into its first 40 and last 3 columns, by three operations that run before the kernel), and writes back rows
  64·t … 64·t + 63 of the result. Since row a of what it writes is the specification's map applied to set 64·t + a, and
  the 32 blocks tile the 2048 rows, the result array is the specification's.
-/
import proofs.«138870_j68839735820410_2_alg».proof.Proof.Gen.KernelIdeal.Value
import proofs.«138870_j68839735820410_2_alg».proof.Proof.KBlock
import proofs.«138870_j68839735820410_2_alg».proof.Proof.Whole
import Idealize.ShloMosaic.Lib.StableHlo.Run
import Idealize.ShloMosaic.Lib.ValueLayout

noncomputable section

namespace Cert.SetNet

open Idealize.ShloMosaic Idealize.ShloMosaic.TcCoe Idealize.SL.Sem Idealize.ShloMosaic.ValueIdx
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The three operations before the kernel -/

/-- The first layer's weights, transposed. -/
theorem V_main_v0 (c : Dev nD) : (V m c main_v0 : S3x120.Idx → EReal) = transpose S3x120 [1, 0] (m ((c : Thread nD τ).loc main_arg2)) transposes_S120x3_S3x120_1_0 := by
  dsimp only [Gen.V, Gen.hostOps0]; after_results

/-- The first 40 columns of the first head layer's weights. -/
theorem V_main_v1 (c : Dev nD) : (V m c main_v1 : S200x40.Idx → EReal) = extractStridedSlice S200x40 ![0, 0] (m ((c : Thread nD τ).loc main_arg14)) slices_S200x43_S200x40_0_0 := by
  dsimp only [Gen.V, Gen.hostOps0]; after_results

/-- Its last 3 columns. -/
theorem V_main_v2 (c : Dev nD) : (V m c main_v2 : S200x3.Idx → EReal) = extractStridedSlice S200x3 ![0, 40] (m ((c : Thread nD τ).loc main_arg14)) slices_S200x43_S200x3_0_40 := by
  dsimp only [Gen.V, Gen.hostOps0]; after_results

/-! ## The weight and bias windows: every grid point is handed the whole array -/

theorem idx_w2 : ∀ t : Fin cfg0.N, win0_2.index t (0 : Fin 2) = 0 ∧ win0_2.index t (1 : Fin 2) = 0 :=
  (by decide +kernel : ∀ t : Fin grid0.N, _)

theorem ld_w2 (c : Dev nD) (t : Fin cfg0.N) : View.ld (iblk m c 2 t) r0_1 = transpose S3x120 [1, 0] (m ((c : Thread nD τ).loc main_arg2)) transposes_S120x3_S3x120_1_0 := by
  refine (View.ld_unit_zero hz2 _ _).trans (Eq.trans ?_ (V_main_v0 m c))
  funext y
  show V m c main_v0 (((cfg0.win 2).blk t).view.emb y) = V m c main_v0 y
  refine congrArg (V m c main_v0) (funext fun a => Fin.ext ?_)
  obtain ⟨e0, e1⟩ := idx_w2 t
  match a with
  | ⟨0, _⟩ => show win0_2.index t (0 : Fin 2) * 3 + 1 * (y 0).val = (y 0).val; omega
  | ⟨1, _⟩ => show win0_2.index t (1 : Fin 2) * 120 + 1 * (y 1).val = (y 1).val; omega

theorem idx_w3 : ∀ t : Fin cfg0.N, win0_3.index t (0 : Fin 1) = 0 :=
  (by decide +kernel : ∀ t : Fin grid0.N, _)

theorem ld_w3 (c : Dev nD) (t : Fin cfg0.N) : View.ld (iblk m c 3 t) r0_2 = (m ((c : Thread nD τ).loc main_arg3)) := by
  refine (View.ld_unit_zero hz1 _ _).trans (Eq.trans ?_ (V_main_arg3 m c))
  funext y
  show V m c main_arg3 (((cfg0.win 3).blk t).view.emb y) = V m c main_arg3 y
  refine congrArg (V m c main_arg3) (funext fun a => Fin.ext ?_)
  obtain e0 := idx_w3 t
  match a with
  | ⟨0, _⟩ => show win0_3.index t (0 : Fin 1) * 120 + 1 * (y 0).val = (y 0).val; omega

theorem idx_w4 : ∀ t : Fin cfg0.N, win0_4.index t (0 : Fin 2) = 0 ∧ win0_4.index t (1 : Fin 2) = 0 :=
  (by decide +kernel : ∀ t : Fin grid0.N, _)

theorem ld_w4 (c : Dev nD) (t : Fin cfg0.N) : View.ld (iblk m c 4 t) r0_3 = (m ((c : Thread nD τ).loc main_arg4)) := by
  refine (View.ld_unit_zero hz2 _ _).trans (Eq.trans ?_ (V_main_arg4 m c))
  funext y
  show V m c main_arg4 (((cfg0.win 4).blk t).view.emb y) = V m c main_arg4 y
  refine congrArg (V m c main_arg4) (funext fun a => Fin.ext ?_)
  obtain ⟨e0, e1⟩ := idx_w4 t
  match a with
  | ⟨0, _⟩ => show win0_4.index t (0 : Fin 2) * 100 + 1 * (y 0).val = (y 0).val; omega
  | ⟨1, _⟩ => show win0_4.index t (1 : Fin 2) * 120 + 1 * (y 1).val = (y 1).val; omega

theorem idx_w5 : ∀ t : Fin cfg0.N, win0_5.index t (0 : Fin 1) = 0 :=
  (by decide +kernel : ∀ t : Fin grid0.N, _)

theorem ld_w5 (c : Dev nD) (t : Fin cfg0.N) : View.ld (iblk m c 5 t) r0_4 = (m ((c : Thread nD τ).loc main_arg5)) := by
  refine (View.ld_unit_zero hz1 _ _).trans (Eq.trans ?_ (V_main_arg5 m c))
  funext y
  show V m c main_arg5 (((cfg0.win 5).blk t).view.emb y) = V m c main_arg5 y
  refine congrArg (V m c main_arg5) (funext fun a => Fin.ext ?_)
  obtain e0 := idx_w5 t
  match a with
  | ⟨0, _⟩ => show win0_5.index t (0 : Fin 1) * 100 + 1 * (y 0).val = (y 0).val; omega

theorem idx_w6 : ∀ t : Fin cfg0.N, win0_6.index t (0 : Fin 2) = 0 ∧ win0_6.index t (1 : Fin 2) = 0 :=
  (by decide +kernel : ∀ t : Fin grid0.N, _)

theorem ld_w6 (c : Dev nD) (t : Fin cfg0.N) : View.ld (iblk m c 6 t) r0_5 = (m ((c : Thread nD τ).loc main_arg6)) := by
  refine (View.ld_unit_zero hz2 _ _).trans (Eq.trans ?_ (V_main_arg6 m c))
  funext y
  show V m c main_arg6 (((cfg0.win 6).blk t).view.emb y) = V m c main_arg6 y
  refine congrArg (V m c main_arg6) (funext fun a => Fin.ext ?_)
  obtain ⟨e0, e1⟩ := idx_w6 t
  match a with
  | ⟨0, _⟩ => show win0_6.index t (0 : Fin 2) * 80 + 1 * (y 0).val = (y 0).val; omega
  | ⟨1, _⟩ => show win0_6.index t (1 : Fin 2) * 100 + 1 * (y 1).val = (y 1).val; omega

theorem idx_w7 : ∀ t : Fin cfg0.N, win0_7.index t (0 : Fin 1) = 0 :=
  (by decide +kernel : ∀ t : Fin grid0.N, _)

theorem ld_w7 (c : Dev nD) (t : Fin cfg0.N) : View.ld (iblk m c 7 t) r0_6 = (m ((c : Thread nD τ).loc main_arg7)) := by
  refine (View.ld_unit_zero hz1 _ _).trans (Eq.trans ?_ (V_main_arg7 m c))
  funext y
  show V m c main_arg7 (((cfg0.win 7).blk t).view.emb y) = V m c main_arg7 y
  refine congrArg (V m c main_arg7) (funext fun a => Fin.ext ?_)
  obtain e0 := idx_w7 t
  match a with
  | ⟨0, _⟩ => show win0_7.index t (0 : Fin 1) * 80 + 1 * (y 0).val = (y 0).val; omega

theorem idx_w8 : ∀ t : Fin cfg0.N, win0_8.index t (0 : Fin 2) = 0 ∧ win0_8.index t (1 : Fin 2) = 0 :=
  (by decide +kernel : ∀ t : Fin grid0.N, _)

theorem ld_w8 (c : Dev nD) (t : Fin cfg0.N) : View.ld (iblk m c 8 t) r0_7 = (m ((c : Thread nD τ).loc main_arg8)) := by
  refine (View.ld_unit_zero hz2 _ _).trans (Eq.trans ?_ (V_main_arg8 m c))
  funext y
  show V m c main_arg8 (((cfg0.win 8).blk t).view.emb y) = V m c main_arg8 y
  refine congrArg (V m c main_arg8) (funext fun a => Fin.ext ?_)
  obtain ⟨e0, e1⟩ := idx_w8 t
  match a with
  | ⟨0, _⟩ => show win0_8.index t (0 : Fin 2) * 60 + 1 * (y 0).val = (y 0).val; omega
  | ⟨1, _⟩ => show win0_8.index t (1 : Fin 2) * 80 + 1 * (y 1).val = (y 1).val; omega

theorem idx_w9 : ∀ t : Fin cfg0.N, win0_9.index t (0 : Fin 1) = 0 :=
  (by decide +kernel : ∀ t : Fin grid0.N, _)

theorem ld_w9 (c : Dev nD) (t : Fin cfg0.N) : View.ld (iblk m c 9 t) r0_8 = (m ((c : Thread nD τ).loc main_arg9)) := by
  refine (View.ld_unit_zero hz1 _ _).trans (Eq.trans ?_ (V_main_arg9 m c))
  funext y
  show V m c main_arg9 (((cfg0.win 9).blk t).view.emb y) = V m c main_arg9 y
  refine congrArg (V m c main_arg9) (funext fun a => Fin.ext ?_)
  obtain e0 := idx_w9 t
  match a with
  | ⟨0, _⟩ => show win0_9.index t (0 : Fin 1) * 60 + 1 * (y 0).val = (y 0).val; omega

theorem idx_w10 : ∀ t : Fin cfg0.N, win0_10.index t (0 : Fin 2) = 0 ∧ win0_10.index t (1 : Fin 2) = 0 :=
  (by decide +kernel : ∀ t : Fin grid0.N, _)

theorem ld_w10 (c : Dev nD) (t : Fin cfg0.N) : View.ld (iblk m c 10 t) r0_9 = (m ((c : Thread nD τ).loc main_arg10)) := by
  refine (View.ld_unit_zero hz2 _ _).trans (Eq.trans ?_ (V_main_arg10 m c))
  funext y
  show V m c main_arg10 (((cfg0.win 10).blk t).view.emb y) = V m c main_arg10 y
  refine congrArg (V m c main_arg10) (funext fun a => Fin.ext ?_)
  obtain ⟨e0, e1⟩ := idx_w10 t
  match a with
  | ⟨0, _⟩ => show win0_10.index t (0 : Fin 2) * 60 + 1 * (y 0).val = (y 0).val; omega
  | ⟨1, _⟩ => show win0_10.index t (1 : Fin 2) * 60 + 1 * (y 1).val = (y 1).val; omega

theorem idx_w11 : ∀ t : Fin cfg0.N, win0_11.index t (0 : Fin 1) = 0 :=
  (by decide +kernel : ∀ t : Fin grid0.N, _)

theorem ld_w11 (c : Dev nD) (t : Fin cfg0.N) : View.ld (iblk m c 11 t) r0_8 = (m ((c : Thread nD τ).loc main_arg11)) := by
  refine (View.ld_unit_zero hz1 _ _).trans (Eq.trans ?_ (V_main_arg11 m c))
  funext y
  show V m c main_arg11 (((cfg0.win 11).blk t).view.emb y) = V m c main_arg11 y
  refine congrArg (V m c main_arg11) (funext fun a => Fin.ext ?_)
  obtain e0 := idx_w11 t
  match a with
  | ⟨0, _⟩ => show win0_11.index t (0 : Fin 1) * 60 + 1 * (y 0).val = (y 0).val; omega

theorem idx_w12 : ∀ t : Fin cfg0.N, win0_12.index t (0 : Fin 2) = 0 ∧ win0_12.index t (1 : Fin 2) = 0 :=
  (by decide +kernel : ∀ t : Fin grid0.N, _)

theorem ld_w12 (c : Dev nD) (t : Fin cfg0.N) : View.ld (iblk m c 12 t) r0_10 = (m ((c : Thread nD τ).loc main_arg12)) := by
  refine (View.ld_unit_zero hz2 _ _).trans (Eq.trans ?_ (V_main_arg12 m c))
  funext y
  show V m c main_arg12 (((cfg0.win 12).blk t).view.emb y) = V m c main_arg12 y
  refine congrArg (V m c main_arg12) (funext fun a => Fin.ext ?_)
  obtain ⟨e0, e1⟩ := idx_w12 t
  match a with
  | ⟨0, _⟩ => show win0_12.index t (0 : Fin 2) * 40 + 1 * (y 0).val = (y 0).val; omega
  | ⟨1, _⟩ => show win0_12.index t (1 : Fin 2) * 60 + 1 * (y 1).val = (y 1).val; omega

theorem idx_w13 : ∀ t : Fin cfg0.N, win0_13.index t (0 : Fin 1) = 0 :=
  (by decide +kernel : ∀ t : Fin grid0.N, _)

theorem ld_w13 (c : Dev nD) (t : Fin cfg0.N) : View.ld (iblk m c 13 t) r0_11 = (m ((c : Thread nD τ).loc main_arg13)) := by
  refine (View.ld_unit_zero hz1 _ _).trans (Eq.trans ?_ (V_main_arg13 m c))
  funext y
  show V m c main_arg13 (((cfg0.win 13).blk t).view.emb y) = V m c main_arg13 y
  refine congrArg (V m c main_arg13) (funext fun a => Fin.ext ?_)
  obtain e0 := idx_w13 t
  match a with
  | ⟨0, _⟩ => show win0_13.index t (0 : Fin 1) * 40 + 1 * (y 0).val = (y 0).val; omega

theorem idx_w14 : ∀ t : Fin cfg0.N, win0_14.index t (0 : Fin 2) = 0 ∧ win0_14.index t (1 : Fin 2) = 0 :=
  (by decide +kernel : ∀ t : Fin grid0.N, _)

theorem ld_w14 (c : Dev nD) (t : Fin cfg0.N) : View.ld (iblk m c 14 t) r0_13 = extractStridedSlice S200x40 ![0, 0] (m ((c : Thread nD τ).loc main_arg14)) slices_S200x43_S200x40_0_0 := by
  refine (View.ld_unit_zero hz2 _ _).trans (Eq.trans ?_ (V_main_v1 m c))
  funext y
  show V m c main_v1 (((cfg0.win 14).blk t).view.emb y) = V m c main_v1 y
  refine congrArg (V m c main_v1) (funext fun a => Fin.ext ?_)
  obtain ⟨e0, e1⟩ := idx_w14 t
  match a with
  | ⟨0, _⟩ => show win0_14.index t (0 : Fin 2) * 200 + 1 * (y 0).val = (y 0).val; omega
  | ⟨1, _⟩ => show win0_14.index t (1 : Fin 2) * 40 + 1 * (y 1).val = (y 1).val; omega

theorem idx_w15 : ∀ t : Fin cfg0.N, win0_15.index t (0 : Fin 2) = 0 ∧ win0_15.index t (1 : Fin 2) = 0 :=
  (by decide +kernel : ∀ t : Fin grid0.N, _)

theorem ld_w15 (c : Dev nD) (t : Fin cfg0.N) : View.ld (iblk m c 15 t) r0_14 = extractStridedSlice S200x3 ![0, 40] (m ((c : Thread nD τ).loc main_arg14)) slices_S200x43_S200x3_0_40 := by
  refine (View.ld_unit_zero hz2 _ _).trans (Eq.trans ?_ (V_main_v2 m c))
  funext y
  show V m c main_v2 (((cfg0.win 15).blk t).view.emb y) = V m c main_v2 y
  refine congrArg (V m c main_v2) (funext fun a => Fin.ext ?_)
  obtain ⟨e0, e1⟩ := idx_w15 t
  match a with
  | ⟨0, _⟩ => show win0_15.index t (0 : Fin 2) * 200 + 1 * (y 0).val = (y 0).val; omega
  | ⟨1, _⟩ => show win0_15.index t (1 : Fin 2) * 3 + 1 * (y 1).val = (y 1).val; omega

theorem idx_w16 : ∀ t : Fin cfg0.N, win0_16.index t (0 : Fin 1) = 0 :=
  (by decide +kernel : ∀ t : Fin grid0.N, _)

theorem ld_w16 (c : Dev nD) (t : Fin cfg0.N) : View.ld (iblk m c 16 t) r0_15 = (m ((c : Thread nD τ).loc main_arg15)) := by
  refine (View.ld_unit_zero hz1 _ _).trans (Eq.trans ?_ (V_main_arg15 m c))
  funext y
  show V m c main_arg15 (((cfg0.win 16).blk t).view.emb y) = V m c main_arg15 y
  refine congrArg (V m c main_arg15) (funext fun a => Fin.ext ?_)
  obtain e0 := idx_w16 t
  match a with
  | ⟨0, _⟩ => show win0_16.index t (0 : Fin 1) * 200 + 1 * (y 0).val = (y 0).val; omega

theorem idx_w17 : ∀ t : Fin cfg0.N, win0_17.index t (0 : Fin 2) = 0 ∧ win0_17.index t (1 : Fin 2) = 0 :=
  (by decide +kernel : ∀ t : Fin grid0.N, _)

theorem ld_w17 (c : Dev nD) (t : Fin cfg0.N) : View.ld (iblk m c 17 t) r0_16 = (m ((c : Thread nD τ).loc main_arg16)) := by
  refine (View.ld_unit_zero hz2 _ _).trans (Eq.trans ?_ (V_main_arg16 m c))
  funext y
  show V m c main_arg16 (((cfg0.win 17).blk t).view.emb y) = V m c main_arg16 y
  refine congrArg (V m c main_arg16) (funext fun a => Fin.ext ?_)
  obtain ⟨e0, e1⟩ := idx_w17 t
  match a with
  | ⟨0, _⟩ => show win0_17.index t (0 : Fin 2) * 100 + 1 * (y 0).val = (y 0).val; omega
  | ⟨1, _⟩ => show win0_17.index t (1 : Fin 2) * 200 + 1 * (y 1).val = (y 1).val; omega

theorem idx_w18 : ∀ t : Fin cfg0.N, win0_18.index t (0 : Fin 1) = 0 :=
  (by decide +kernel : ∀ t : Fin grid0.N, _)

theorem ld_w18 (c : Dev nD) (t : Fin cfg0.N) : View.ld (iblk m c 18 t) r0_4 = (m ((c : Thread nD τ).loc main_arg17)) := by
  refine (View.ld_unit_zero hz1 _ _).trans (Eq.trans ?_ (V_main_arg17 m c))
  funext y
  show V m c main_arg17 (((cfg0.win 18).blk t).view.emb y) = V m c main_arg17 y
  refine congrArg (V m c main_arg17) (funext fun a => Fin.ext ?_)
  obtain e0 := idx_w18 t
  match a with
  | ⟨0, _⟩ => show win0_18.index t (0 : Fin 1) * 100 + 1 * (y 0).val = (y 0).val; omega

theorem idx_w19 : ∀ t : Fin cfg0.N, win0_19.index t (0 : Fin 2) = 0 ∧ win0_19.index t (1 : Fin 2) = 0 :=
  (by decide +kernel : ∀ t : Fin grid0.N, _)

theorem ld_w19 (c : Dev nD) (t : Fin cfg0.N) : View.ld (iblk m c 19 t) r0_17 = (m ((c : Thread nD τ).loc main_arg18)) := by
  refine (View.ld_unit_zero hz2 _ _).trans (Eq.trans ?_ (V_main_arg18 m c))
  funext y
  show V m c main_arg18 (((cfg0.win 19).blk t).view.emb y) = V m c main_arg18 y
  refine congrArg (V m c main_arg18) (funext fun a => Fin.ext ?_)
  obtain ⟨e0, e1⟩ := idx_w19 t
  match a with
  | ⟨0, _⟩ => show win0_19.index t (0 : Fin 2) * 3 + 1 * (y 0).val = (y 0).val; omega
  | ⟨1, _⟩ => show win0_19.index t (1 : Fin 2) * 100 + 1 * (y 1).val = (y 1).val; omega

theorem idx_w20 : ∀ t : Fin cfg0.N, win0_20.index t (0 : Fin 1) = 0 :=
  (by decide +kernel : ∀ t : Fin grid0.N, _)

theorem ld_w20 (c : Dev nD) (t : Fin cfg0.N) : View.ld (iblk m c 20 t) r0_18 = (m ((c : Thread nD τ).loc main_arg19)) := by
  refine (View.ld_unit_zero hz1 _ _).trans (Eq.trans ?_ (V_main_arg19 m c))
  funext y
  show V m c main_arg19 (((cfg0.win 20).blk t).view.emb y) = V m c main_arg19 y
  refine congrArg (V m c main_arg19) (funext fun a => Fin.ext ?_)
  obtain e0 := idx_w20 t
  match a with
  | ⟨0, _⟩ => show win0_20.index t (0 : Fin 1) * 3 + 1 * (y 0).val = (y 0).val; omega

/-! ## The parameters the kernel is handed are the arrays' -/

/-- The transposed first-layer weights read column by column, and the two pieces of the first head layer's weights
    read side by side, are the weight arrays read row by row; nothing else differs. -/
theorem params_bridge (a2 : S120x3.Idx → EReal) (a3 : S120.Idx → EReal) (a4 : S100x120.Idx → EReal) (a5 : S100.Idx → EReal)
    (a6 : S80x100.Idx → EReal) (a7 : S80.Idx → EReal) (a8 : S60x80.Idx → EReal) (a9 : S60.Idx → EReal)
    (a10 : S60x60.Idx → EReal) (a11 : S60.Idx → EReal) (a12 : S40x60.Idx → EReal) (a13 : S40.Idx → EReal)
    (a14 : S200x43.Idx → EReal) (a15 : S200.Idx → EReal) (a16 : S100x200.Idx → EReal) (a17 : S100.Idx → EReal)
    (a18 : S3x100.Idx → EReal) (a19 : S3.Idx → EReal)
    (ht : S120x3.Transposes [1, 0] S3x120) (h1 : S200x43.Slices ![0, 0] S200x40) (h2 : S200x43.Slices ![0, 40] S200x3) :
    blockParams (transpose S3x120 [1, 0] a2 ht) a3 a4 a5 a7 a6 a8 a9 a10 a11 a12 a13
        (extractStridedSlice S200x40 ![0, 0] a14 h1) (extractStridedSlice S200x3 ![0, 40] a14 h2) a15 a16 a17 a18 a19
      = arrayParams a2 a3 a4 a5 a6 a7 a8 a9 a10 a11 a12 a13 a14 a15 a16 a17 a18 a19 := by
  have hw : colsOf (transpose S3x120 [1, 0] a2 ht) = rows a2 :=
    funext fun o => funext fun i => transpose_ix2_apply a2 ht i o
  have hv : joinCols (extractStridedSlice S200x40 ![0, 0] a14 h1) (extractStridedSlice S200x3 ![0, 40] a14 h2) = rows a14 := by
    funext o k
    unfold joinCols rows
    by_cases h : k.val < 40
    · rw [dif_pos h]
      exact slice2_axis1_apply 0 a14 h1 o ⟨k.val, h⟩ k (by show k.val = 0 + k.val; omega)
    · rw [dif_neg h]
      exact slice2_axis1_apply 40 a14 h2 o ⟨k.val - 40, by have := k.isLt; omega⟩ k (by show k.val = 40 + (k.val - 40); omega)
  unfold blockParams arrayParams
  rw [hw, hv]

/-- The same with the kernel's operands given up to equality. -/
theorem params_bridge_of (a2 : S120x3.Idx → EReal) (a3 : S120.Idx → EReal) (a4 : S100x120.Idx → EReal) (a5 : S100.Idx → EReal)
    (a6 : S80x100.Idx → EReal) (a7 : S80.Idx → EReal) (a8 : S60x80.Idx → EReal) (a9 : S60.Idx → EReal)
    (a10 : S60x60.Idx → EReal) (a11 : S60.Idx → EReal) (a12 : S40x60.Idx → EReal) (a13 : S40.Idx → EReal)
    (a14 : S200x43.Idx → EReal) (a15 : S200.Idx → EReal) (a16 : S100x200.Idx → EReal) (a17 : S100.Idx → EReal)
    (a18 : S3x100.Idx → EReal) (a19 : S3.Idx → EReal)
    (ht : S120x3.Transposes [1, 0] S3x120) (h1 : S200x43.Slices ![0, 0] S200x40) (h2 : S200x43.Slices ![0, 40] S200x3)
    (Q2 : S3x120.Idx → EReal) (Q3 : S120.Idx → EReal) (Q4 : S100x120.Idx → EReal) (Q5 : S100.Idx → EReal) (Q7 : S80.Idx → EReal) (Q6 : S80x100.Idx → EReal) (Q8 : S60x80.Idx → EReal) (Q9 : S60.Idx → EReal) (Q10 : S60x60.Idx → EReal) (Q11 : S60.Idx → EReal) (Q12 : S40x60.Idx → EReal) (Q13 : S40.Idx → EReal) (Q14 : S200x40.Idx → EReal) (Q15 : S200x3.Idx → EReal) (Q16 : S200.Idx → EReal) (Q17 : S100x200.Idx → EReal) (Q18 : S100.Idx → EReal) (Q19 : S3x100.Idx → EReal) (Q20 : S3.Idx → EReal)
    (e2 : Q2 = transpose S3x120 [1, 0] a2 ht) (e3 : Q3 = a3) (e4 : Q4 = a4) (e5 : Q5 = a5) (e7 : Q7 = a7) (e6 : Q6 = a6) (e8 : Q8 = a8) (e9 : Q9 = a9) (e10 : Q10 = a10) (e11 : Q11 = a11) (e12 : Q12 = a12) (e13 : Q13 = a13) (e14 : Q14 = extractStridedSlice S200x40 ![0, 0] a14 h1) (e15 : Q15 = extractStridedSlice S200x3 ![0, 40] a14 h2) (e16 : Q16 = a15) (e17 : Q17 = a16) (e18 : Q18 = a17) (e19 : Q19 = a18) (e20 : Q20 = a19) :
    blockParams Q2 Q3 Q4 Q5 Q7 Q6 Q8 Q9 Q10 Q11 Q12 Q13 Q14 Q15 Q16 Q17 Q18 Q19 Q20
      = arrayParams a2 a3 a4 a5 a6 a7 a8 a9 a10 a11 a12 a13 a14 a15 a16 a17 a18 a19 := by
  subst e2 e3 e4 e5 e7 e6 e8 e9 e10 e11 e12 e13 e14 e15 e16 e17 e18 e19 e20
  exact params_bridge _ _ _ _ _ _ _ _ _ _ _ _ _ _ _ _ _ _ ht h1 h2

/-! ## What each grid point writes back -/

/-- The points and side-features windows move with the result's window, 64 rows per grid point; the other coordinates
    of their block indices are 0 (decided over the 32 grid points). -/
theorem idx_rows : ∀ t : Fin cfg0.N, win0_0.index t (0 : Fin 3) = win0_21.index t (0 : Fin 2)
    ∧ win0_0.index t (1 : Fin 3) = 0 ∧ win0_0.index t (2 : Fin 3) = 0
    ∧ win0_1.index t (0 : Fin 2) = win0_21.index t (0 : Fin 2) ∧ win0_1.index t (1 : Fin 2) = 0
    ∧ win0_21.index t (1 : Fin 2) = 0 ∧ win0_21.index t (0 : Fin 2) ≤ 31 :=
  (by decide +kernel : ∀ t : Fin grid0.N, _)

/-- Every block of 64 rows is some grid point's. -/
theorem idx_onto : ∀ q : Fin 32, ∃ t : Fin cfg0.N, win0_21.index t = ![q.val, 0] :=
  (by decide +kernel : ∀ q : Fin 32, ∃ t : Fin grid0.N, win0_21.index t = ![q.val, 0])

/-- Grid point `t` writes back block `t` of the specification's result array. -/
theorem flushed_eq (c : Dev nD) (t : Fin cfg0.N) :
    (dats m 0 c).flushed 21 t = ((cfg0.win 21).blk t).view.read (Elt Ideal) (result (m ((c : Thread nD τ).loc main_arg0)) (m ((c : Thread nD τ).loc main_arg1)) (arrayParams (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))) := by
  rw [flushed21]
  unfold out0_21
  refine funext fun y => ?_
  refine (canon21_eq _ _ _ _ _ _ _ _ _ _ _ _ _ _ _ _ _ _ _ _ _ _).trans ?_
  refine (block_apply_idx _ _ _ _ _ _ _ _ _ _ _ _ _ _ _ _ _ _ _ _ _ _).trans ?_
  rw [View.read_apply]
  obtain ⟨e0, e1, e2, e3, e4, e5, e6⟩ := idx_rows t
  unfold result
  refine out_congr ?_ ?_ ?_ ?_
  · exact params_bridge_of _ _ _ _ _ _ _ _ _ _ _ _ _ _ _ _ _ _ _ _ _ _ _ _ _ _ _ _ _ _ _ _ _ _ _ _ _ _ _ _
      (ld_w2 m c t) (ld_w3 m c t) (ld_w4 m c t) (ld_w5 m c t) (ld_w7 m c t) (ld_w6 m c t) (ld_w8 m c t) (ld_w9 m c t) (ld_w10 m c t) (ld_w11 m c t) (ld_w12 m c t) (ld_w13 m c t) (ld_w14 m c t) (ld_w15 m c t) (ld_w16 m c t) (ld_w17 m c t) (ld_w18 m c t) (ld_w19 m c t) (ld_w20 m c t)
  · funext r i
    rw [View.ld_unit_zero hz3]
    refine Eq.trans ?_ (congrFun (V_main_arg0 m c) _)
    show V m c main_arg0 (((cfg0.win 0).blk t).view.emb (ix3 ((cfg0.win 21).xinj (grid0.coords t) y 0) r i)) = V m c main_arg0 _
    refine congrArg (V m c main_arg0) (funext fun a => Fin.ext ?_)
    match a with
    | ⟨0, _⟩ => show win0_0.index t (0 : Fin 3) * 64 + 1 * (y 0).val = win0_21.index t (0 : Fin 2) * 64 + 1 * (y 0).val; omega
    | ⟨1, _⟩ => show win0_0.index t (1 : Fin 3) * 128 + 1 * r.val = r.val; omega
    | ⟨2, _⟩ => show win0_0.index t (2 : Fin 3) * 3 + 1 * i.val = i.val; omega
  · funext k
    rw [View.ld_unit_zero hz2]
    refine Eq.trans ?_ (congrFun (V_main_arg1 m c) _)
    show V m c main_arg1 (((cfg0.win 1).blk t).view.emb (ix2 ((cfg0.win 21).xinj (grid0.coords t) y 0) k)) = V m c main_arg1 _
    refine congrArg (V m c main_arg1) (funext fun a => Fin.ext ?_)
    match a with
    | ⟨0, _⟩ => show win0_1.index t (0 : Fin 2) * 64 + 1 * (y 0).val = win0_21.index t (0 : Fin 2) * 64 + 1 * (y 0).val; omega
    | ⟨1, _⟩ => show win0_1.index t (1 : Fin 2) * 3 + 1 * k.val = k.val; omega
  · refine Fin.ext ?_
    show (y 1).val = win0_21.index t (1 : Fin 2) * 3 + 1 * (y 1).val
    omega

/-! ## The blocks tile the array -/

/-- An index of the result array is in point `t`'s block iff each coordinate is in the block's range on its axis. -/
theorem mem_blk (t : Fin cfg0.N) (i : S2048x3.Idx) :
    i ∈ ((cfg0.win 21).blk t).view.set ↔ ∀ a : Fin 2, win0_21.index t a * S64x3.size a ≤ (i a).val
      ∧ (i a).val < win0_21.index t a * S64x3.size a + S64x3.size a := by
  show i ∈ ((View.whole main_v3).slice (win0_21.rect t)).set ↔ _
  rw [View.set_slice_whole, Rect.mem_set_unit]
  exact Iff.rfl

/-- Row `b` is in the block of the grid point with block index `b / 64`. -/
theorem cover (i : S2048x3.Idx) : ∃ t : Fin cfg0.N, (cfg0.win 21).flush t = true ∧ i ∈ ((cfg0.win 21).blk t).view.set := by
  have hi0 : (i 0).val < 2048 := (i 0).isLt
  have hi1 : (i 1).val < 3 := (i 1).isLt
  obtain ⟨t, ht⟩ := idx_onto ⟨(i 0).val / 64, by omega⟩
  have q0 : win0_21.index t (0 : Fin 2) = (i 0).val / 64 := congrFun ht 0
  have q1 : win0_21.index t (1 : Fin 2) = 0 := congrFun ht 1
  refine ⟨t, flush0_21 t, ?_⟩
  rw [mem_blk]
  intro a
  match a with
  | ⟨0, _⟩ => show win0_21.index t (0 : Fin 2) * 64 ≤ (i 0).val ∧ (i 0).val < win0_21.index t (0 : Fin 2) * 64 + 64; omega
  | ⟨1, _⟩ => show win0_21.index t (1 : Fin 2) * 3 ≤ (i 1).val ∧ (i 1).val < win0_21.index t (1 : Fin 2) * 3 + 3; omega

/-- The result array after the run is the specification's. -/
theorem final (c : Dev nD) : (dats m 0 c).arrAt 21 cfg0.N = (result (m ((c : Thread nD τ).loc main_arg0)) (m ((c : Thread nD τ).loc main_arg1)) (arrayParams (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))) :=
  (dats m 0 c).arrAt_eq_of_cover 21 _ (fun t _ => flushed_eq m c t) cover

/-- The kernel's run: it terminates without a fault, the result array holds the specification's function of the
    argument arrays, and the argument arrays are unchanged. -/
theorem kernel_run : θ_run defs (onTc (τ := τ) (main (F := Ideal))) ⟨m, fun _ => 0, ρ⟩ fun r => ∀ c : Dev nD,
      r.2.mem ((c : Thread nD τ).loc main_v3) = (result (m ((c : Thread nD τ).loc main_arg0)) (m ((c : Thread nD τ).loc main_arg1)) (arrayParams (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (final m c), (h c).2⟩) (Value.run_blocks m ρ)

end Cert.SetNet

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.Ref.lean ====
/-
  The reference program, stage by stage, is the specification.

  Each stage of the reference — a product with a weight matrix, the bias added, the rectifier; the sum over a set's
  points; the joining of the middle features with the side features; the softmax — is read at an index from the
  stage before it, so that the scores of set b are the specification's scores of that set's 128 points and 3 side
  features, with the weights read row by row off the argument arrays.
-/
import proofs.«138870_j68839735820410_2_alg».proof.Proof.Gen.ReferenceIdeal.Read
import Idealize.ShloMosaic.PureOps.Reduce
import proofs.«138870_j68839735820410_2_alg».proof.Proof.Spec
import proofs.«138870_j68839735820410_2_alg».proof.Proof.KLayer
import proofs.«138870_j68839735820410_2_alg».proof.Proof.LibConcatRead
import proofs.«138870_j68839735820410_2_alg».proof.Proof.LibLaneSum
import proofs.«138870_j68839735820410_2_alg».proof.Proof.Whole

noncomputable section

open scoped BigOperators

namespace Cert.SetNet

open Idealize.ShloMosaic Idealize.ShloMosaic.ValueIdx Cert.ReferenceIdeal Cert.ReferenceIdeal.Gen Cert.ReferenceIdeal.Read

variable (x0 : (⟨S2048x128x3, .f32⟩ : BufTy).Contents (Elt Ideal))
  (x1 : (⟨S2048x3, .f32⟩ : BufTy).Contents (Elt Ideal))
  (x2 : (⟨S120x3, .f32⟩ : BufTy).Contents (Elt Ideal))
  (x3 : (⟨S120, .f32⟩ : BufTy).Contents (Elt Ideal))
  (x4 : (⟨S100x120, .f32⟩ : BufTy).Contents (Elt Ideal))
  (x5 : (⟨S100, .f32⟩ : BufTy).Contents (Elt Ideal))
  (x6 : (⟨S80x100, .f32⟩ : BufTy).Contents (Elt Ideal))
  (x7 : (⟨S80, .f32⟩ : BufTy).Contents (Elt Ideal))
  (x8 : (⟨S60x80, .f32⟩ : BufTy).Contents (Elt Ideal))
  (x9 : (⟨S60, .f32⟩ : BufTy).Contents (Elt Ideal))
  (x10 : (⟨S60x60, .f32⟩ : BufTy).Contents (Elt Ideal))
  (x11 : (⟨S60, .f32⟩ : BufTy).Contents (Elt Ideal))
  (x12 : (⟨S40x60, .f32⟩ : BufTy).Contents (Elt Ideal))
  (x13 : (⟨S40, .f32⟩ : BufTy).Contents (Elt Ideal))
  (x14 : (⟨S200x43, .f32⟩ : BufTy).Contents (Elt Ideal))
  (x15 : (⟨S200, .f32⟩ : BufTy).Contents (Elt Ideal))
  (x16 : (⟨S100x200, .f32⟩ : BufTy).Contents (Elt Ideal))
  (x17 : (⟨S100, .f32⟩ : BufTy).Contents (Elt Ideal))
  (x18 : (⟨S3x100, .f32⟩ : BufTy).Contents (Elt Ideal))
  (x19 : (⟨S3, .f32⟩ : BufTy).Contents (Elt Ideal))

/-- The first pointwise layer at point `m` of set `b`. -/
theorem ref_h1 (b : Fin 2048) (m : Fin 128) (o : Fin 120) :
    val_main_v4 (F := Ideal) x0 x2 x3 (ix3 b m o) = layer (rows x2) (entries x3) (fun i => x0 (ix3 b m i)) o := by
  rw [val_main_v4_apply, val_main_v3_apply, val_main_v0_apply, val_main_v2_apply, val_main_v1_apply,
    val_main_call0_v0_apply, val_main_call0_cst_apply]
  unfold layer affine
  refine congrArg₂ (fun u z : EReal => max u z) (congrArg₂ (· + ·) (Finset.sum_congr rfl fun k _ => ?_) ?_) rfl
  · refine congrArg₂ (· * ·) ?_ ?_
    · exact congrArg x0 (funext fun a => by match a with | ⟨0, _⟩ => rfl | ⟨1, _⟩ => rfl | ⟨2, _⟩ => rfl)
    · exact congrArg x2 (funext fun a => by match a with | ⟨0, _⟩ => rfl | ⟨1, _⟩ => rfl)
  · exact congrArg x3 (funext fun a => by match a with | ⟨0, _⟩ => rfl)

/-- The second pointwise layer. -/
theorem ref_h2 (b : Fin 2048) (m : Fin 128) (o : Fin 100) :
    val_main_v9 (F := Ideal) x0 x2 x3 x4 x5 (ix3 b m o) = layer (rows x4) (entries x5) (layer (rows x2) (entries x3) (fun i => x0 (ix3 b m i))) o := by
  rw [val_main_v9_apply, val_main_v8_apply, val_main_v5_apply, val_main_v7_apply, val_main_v6_apply,
    val_main_call1_v0_apply, val_main_call1_cst_apply]
  unfold layer affine
  refine congrArg₂ (fun u z : EReal => max u z) (congrArg₂ (· + ·) (Finset.sum_congr rfl fun k _ => ?_) ?_) rfl
  · refine congrArg₂ (· * ·) ?_ ?_
    · exact (congrArg (val_main_v4 (F := Ideal) x0 x2 x3) (funext fun a => by match a with | ⟨0, _⟩ => rfl | ⟨1, _⟩ => rfl | ⟨2, _⟩ => rfl)).trans (ref_h1 x0 x2 x3 b m k)
    · exact congrArg x4 (funext fun a => by match a with | ⟨0, _⟩ => rfl | ⟨1, _⟩ => rfl)
  · exact congrArg x5 (funext fun a => by match a with | ⟨0, _⟩ => rfl)

/-- The third pointwise layer. -/
theorem ref_h3 (b : Fin 2048) (m : Fin 128) (o : Fin 80) :
    val_main_v14 (F := Ideal) x0 x2 x3 x4 x5 x6 x7 (ix3 b m o) = layer (rows x6) (entries x7) (layer (rows x4) (entries x5) (layer (rows x2) (entries x3) (fun i => x0 (ix3 b m i)))) o := by
  rw [val_main_v14_apply, val_main_v13_apply, val_main_v10_apply, val_main_v12_apply, val_main_v11_apply,
    val_main_call2_v0_apply, val_main_call2_cst_apply]
  unfold layer affine
  refine congrArg₂ (fun u z : EReal => max u z) (congrArg₂ (· + ·) (Finset.sum_congr rfl fun k _ => ?_) ?_) rfl
  · refine congrArg₂ (· * ·) ?_ ?_
    · exact (congrArg (val_main_v9 (F := Ideal) x0 x2 x3 x4 x5) (funext fun a => by match a with | ⟨0, _⟩ => rfl | ⟨1, _⟩ => rfl | ⟨2, _⟩ => rfl)).trans (ref_h2 x0 x2 x3 x4 x5 b m k)
    · exact congrArg x6 (funext fun a => by match a with | ⟨0, _⟩ => rfl | ⟨1, _⟩ => rfl)
  · exact congrArg x7 (funext fun a => by match a with | ⟨0, _⟩ => rfl)

/-- The sum over the 128 points of set `b`: the reference adds them to the value of the word of +0, which is 0. -/
theorem ref_pool (b : Fin 2048) (o : Fin 80) :
    val_main_v15 (F := Ideal) x0 x2 x3 x4 x5 x6 x7 (ix2 b o) = ∑ m : Fin 128, layer (rows x6) (entries x7) (layer (rows x4) (entries x5) (layer (rows x2) (entries x3) (fun i => x0 (ix3 b m i)))) o := by
  rw [val_main_v15_apply, val_main_cst_apply]
  refine (congrArg (fun z : EReal => z + _) Ideal.ofBits_zero_f32).trans ((zero_add _).trans ?_)
  refine Finset.sum_congr rfl fun m _ => ?_
  exact (congrArg (val_main_v14 (F := Ideal) x0 x2 x3 x4 x5 x6 x7) (funext fun a => by match a with | ⟨0, _⟩ => rfl | ⟨1, _⟩ => rfl | ⟨2, _⟩ => rfl)).trans (ref_h3 x0 x2 x3 x4 x5 x6 x7 b m o)

/-- The middle network's first layer on the pooled features of set `b`. -/
theorem ref_r1 (b : Fin 2048) (o : Fin 60) :
    val_main_v21 (F := Ideal) x0 x2 x3 x4 x5 x6 x7 x8 x9 (ix2 b o) = layer (rows x8) (entries x9) (fun o' => ∑ m : Fin 128, layer (rows x6) (entries x7) (layer (rows x4) (entries x5) (layer (rows x2) (entries x3) (fun i => x0 (ix3 b m i)))) o') o := by
  rw [val_main_v21_apply, val_main_v20_apply, val_main_v17_apply, val_main_v19_apply, val_main_v18_apply,
    val_main_call3_v0_apply, val_main_call3_cst_apply]
  unfold layer affine
  refine congrArg₂ (fun u z : EReal => max u z) (congrArg₂ (· + ·) (Finset.sum_congr rfl fun k _ => ?_) ?_) rfl
  · rw [val_main_v16_apply]
    refine congrArg₂ (· * ·) ?_ ?_
    · exact (congrArg (val_main_v15 (F := Ideal) x0 x2 x3 x4 x5 x6 x7) (funext fun a => by match a with | ⟨0, _⟩ => rfl | ⟨1, _⟩ => rfl)).trans (ref_pool x0 x2 x3 x4 x5 x6 x7 b k)
    · exact congrArg x8 (funext fun a => by match a with | ⟨0, _⟩ => rfl | ⟨1, _⟩ => rfl)
  · exact congrArg x9 (funext fun a => by match a with | ⟨0, _⟩ => rfl)

/-- The middle network's second layer. -/
theorem ref_r2 (b : Fin 2048) (o : Fin 60) :
    val_main_v27 (F := Ideal) x0 x2 x3 x4 x5 x6 x7 x8 x9 x10 x11 (ix2 b o) = layer (rows x10) (entries x11) (layer (rows x8) (entries x9) (fun o' => ∑ m : Fin 128, layer (rows x6) (entries x7) (layer (rows x4) (entries x5) (layer (rows x2) (entries x3) (fun i => x0 (ix3 b m i)))) o')) o := by
  rw [val_main_v27_apply, val_main_v26_apply, val_main_v23_apply, val_main_v25_apply, val_main_v24_apply,
    val_main_call4_v0_apply, val_main_call4_cst_apply]
  unfold layer affine
  refine congrArg₂ (fun u z : EReal => max u z) (congrArg₂ (· + ·) (Finset.sum_congr rfl fun k _ => ?_) ?_) rfl
  · rw [val_main_v22_apply]
    refine congrArg₂ (· * ·) ?_ ?_
    · exact (congrArg (val_main_v21 (F := Ideal) x0 x2 x3 x4 x5 x6 x7 x8 x9) (funext fun a => by match a with | ⟨0, _⟩ => rfl | ⟨1, _⟩ => rfl)).trans (ref_r1 x0 x2 x3 x4 x5 x6 x7 x8 x9 b k)
    · exact congrArg x10 (funext fun a => by match a with | ⟨0, _⟩ => rfl | ⟨1, _⟩ => rfl)
  · exact congrArg x11 (funext fun a => by match a with | ⟨0, _⟩ => rfl)

/-- The middle network's last layer, not rectified. -/
theorem ref_r3 (b : Fin 2048) (o : Fin 40) :
    val_main_v32 (F := Ideal) x0 x2 x3 x4 x5 x6 x7 x8 x9 x10 x11 x12 x13 (ix2 b o) = affine (rows x12) (entries x13) (layer (rows x10) (entries x11) (layer (rows x8) (entries x9) (fun o' => ∑ m : Fin 128, layer (rows x6) (entries x7) (layer (rows x4) (entries x5) (layer (rows x2) (entries x3) (fun i => x0 (ix3 b m i)))) o'))) o := by
  rw [val_main_v32_apply, val_main_v29_apply, val_main_v31_apply, val_main_v30_apply]
  unfold affine
  refine congrArg₂ (· + ·) (Finset.sum_congr rfl fun k _ => ?_) ?_
  · rw [val_main_v28_apply]
    refine congrArg₂ (· * ·) ?_ ?_
    · exact (congrArg (val_main_v27 (F := Ideal) x0 x2 x3 x4 x5 x6 x7 x8 x9 x10 x11) (funext fun a => by match a with | ⟨0, _⟩ => rfl | ⟨1, _⟩ => rfl)).trans (ref_r2 x0 x2 x3 x4 x5 x6 x7 x8 x9 x10 x11 b k)
    · exact congrArg x12 (funext fun a => by match a with | ⟨0, _⟩ => rfl | ⟨1, _⟩ => rfl)
  · exact congrArg x13 (funext fun a => by match a with | ⟨0, _⟩ => rfl)

/-- The middle features of set `b` followed by its three side features: the reference's concatenation along the columns. -/
theorem ref_join (b : Fin 2048) (k : Fin 43) :
    val_main_v33 (F := Ideal) x0 x1 x2 x3 x4 x5 x6 x7 x8 x9 x10 x11 x12 x13 (ix2 b k) = joined (affine (rows x12) (entries x13) (layer (rows x10) (entries x11) (layer (rows x8) (entries x9) (fun o' => ∑ m : Fin 128, layer (rows x6) (entries x7) (layer (rows x4) (entries x5) (layer (rows x2) (entries x3) (fun i => x0 (ix3 b m i)))) o')))) (fun k => x1 (ix2 b k)) k := by
  unfold val_main_v33 joined
  by_cases h : k.val < 40
  · rw [dif_pos h]
    exact (concat_cols_left _ _ _ b ⟨k.val, h⟩ k rfl).trans (ref_r3 x0 x2 x3 x4 x5 x6 x7 x8 x9 x10 x11 x12 x13 b ⟨k.val, h⟩)
  · rw [dif_neg h]
    exact concat_cols_right _ _ _ b ⟨k.val - 40, by have := k.isLt; omega⟩ k (by show k.val = 40 + (k.val - 40); omega)

/-- The head network's first layer on the joined vector of set `b`. -/
theorem ref_q1 (b : Fin 2048) (o : Fin 200) :
    val_main_v39 (F := Ideal) x0 x1 x2 x3 x4 x5 x6 x7 x8 x9 x10 x11 x12 x13 x14 x15 (ix2 b o) = layer (rows x14) (entries x15) (joined (affine (rows x12) (entries x13) (layer (rows x10) (entries x11) (layer (rows x8) (entries x9) (fun o' => ∑ m : Fin 128, layer (rows x6) (entries x7) (layer (rows x4) (entries x5) (layer (rows x2) (entries x3) (fun i => x0 (ix3 b m i)))) o')))) (fun k => x1 (ix2 b k))) o := by
  rw [val_main_v39_apply, val_main_v38_apply, val_main_v35_apply, val_main_v37_apply, val_main_v36_apply,
    val_main_call5_v0_apply, val_main_call5_cst_apply]
  unfold layer affine
  refine congrArg₂ (fun u z : EReal => max u z) (congrArg₂ (· + ·) (Finset.sum_congr rfl fun k _ => ?_) ?_) rfl
  · rw [val_main_v34_apply]
    refine congrArg₂ (· * ·) ?_ ?_
    · exact (congrArg (val_main_v33 (F := Ideal) x0 x1 x2 x3 x4 x5 x6 x7 x8 x9 x10 x11 x12 x13) (funext fun a => by match a with | ⟨0, _⟩ => rfl | ⟨1, _⟩ => rfl)).trans (ref_join x0 x1 x2 x3 x4 x5 x6 x7 x8 x9 x10 x11 x12 x13 b k)
    · exact congrArg x14 (funext fun a => by match a with | ⟨0, _⟩ => rfl | ⟨1, _⟩ => rfl)
  · exact congrArg x15 (funext fun a => by match a with | ⟨0, _⟩ => rfl)

/-- The head network's second layer. -/
theorem ref_q2 (b : Fin 2048) (o : Fin 100) :
    val_main_v45 (F := Ideal) x0 x1 x2 x3 x4 x5 x6 x7 x8 x9 x10 x11 x12 x13 x14 x15 x16 x17 (ix2 b o) = layer (rows x16) (entries x17) (layer (rows x14) (entries x15) (joined (affine (rows x12) (entries x13) (layer (rows x10) (entries x11) (layer (rows x8) (entries x9) (fun o' => ∑ m : Fin 128, layer (rows x6) (entries x7) (layer (rows x4) (entries x5) (layer (rows x2) (entries x3) (fun i => x0 (ix3 b m i)))) o')))) (fun k => x1 (ix2 b k)))) o := by
  rw [val_main_v45_apply, val_main_v44_apply, val_main_v41_apply, val_main_v43_apply, val_main_v42_apply,
    val_main_call6_v0_apply, val_main_call6_cst_apply]
  unfold layer affine
  refine congrArg₂ (fun u z : EReal => max u z) (congrArg₂ (· + ·) (Finset.sum_congr rfl fun k _ => ?_) ?_) rfl
  · rw [val_main_v40_apply]
    refine congrArg₂ (· * ·) ?_ ?_
    · exact (congrArg (val_main_v39 (F := Ideal) x0 x1 x2 x3 x4 x5 x6 x7 x8 x9 x10 x11 x12 x13 x14 x15) (funext fun a => by match a with | ⟨0, _⟩ => rfl | ⟨1, _⟩ => rfl)).trans (ref_q1 x0 x1 x2 x3 x4 x5 x6 x7 x8 x9 x10 x11 x12 x13 x14 x15 b k)
    · exact congrArg x16 (funext fun a => by match a with | ⟨0, _⟩ => rfl | ⟨1, _⟩ => rfl)
  · exact congrArg x17 (funext fun a => by match a with | ⟨0, _⟩ => rfl)

/-- The three scores of set `b`. -/
theorem ref_q3 (b : Fin 2048) (o : Fin 3) :
    val_main_v50 (F := Ideal) x0 x1 x2 x3 x4 x5 x6 x7 x8 x9 x10 x11 x12 x13 x14 x15 x16 x17 x18 x19 (ix2 b o) = affine (rows x18) (entries x19) (layer (rows x16) (entries x17) (layer (rows x14) (entries x15) (joined (affine (rows x12) (entries x13) (layer (rows x10) (entries x11) (layer (rows x8) (entries x9) (fun o' => ∑ m : Fin 128, layer (rows x6) (entries x7) (layer (rows x4) (entries x5) (layer (rows x2) (entries x3) (fun i => x0 (ix3 b m i)))) o')))) (fun k => x1 (ix2 b k))))) o := by
  rw [val_main_v50_apply, val_main_v47_apply, val_main_v49_apply, val_main_v48_apply]
  unfold affine
  refine congrArg₂ (· + ·) (Finset.sum_congr rfl fun k _ => ?_) ?_
  · rw [val_main_v46_apply]
    refine congrArg₂ (· * ·) ?_ ?_
    · exact (congrArg (val_main_v45 (F := Ideal) x0 x1 x2 x3 x4 x5 x6 x7 x8 x9 x10 x11 x12 x13 x14 x15 x16 x17) (funext fun a => by match a with | ⟨0, _⟩ => rfl | ⟨1, _⟩ => rfl)).trans (ref_q2 x0 x1 x2 x3 x4 x5 x6 x7 x8 x9 x10 x11 x12 x13 x14 x15 x16 x17 b k)
    · exact congrArg x18 (funext fun a => by match a with | ⟨0, _⟩ => rfl | ⟨1, _⟩ => rfl)
  · exact congrArg x19 (funext fun a => by match a with | ⟨0, _⟩ => rfl)

/-- The softmax of the three scores of set `b`: the reference takes the row's maximum by a fold from −∞, once more
    against −∞, and adds the three exponentials to the value of the word of +0. -/
theorem ref_out (b : Fin 2048) (c : Fin 3) :
    val_main_v61 (F := Ideal) x0 x1 x2 x3 x4 x5 x6 x7 x8 x9 x10 x11 x12 x13 x14 x15 x16 x17 x18 x19 (ix2 b c) = softmax (affine (rows x18) (entries x19) (layer (rows x16) (entries x17) (layer (rows x14) (entries x15) (joined (affine (rows x12) (entries x13) (layer (rows x10) (entries x11) (layer (rows x8) (entries x9) (fun o' => ∑ m : Fin 128, layer (rows x6) (entries x7) (layer (rows x4) (entries x5) (layer (rows x2) (entries x3) (fun i => x0 (ix3 b m i)))) o')))) (fun k => x1 (ix2 b k)))))) c := by
  have hRed : S2048x3.Reduces [1] S2048 := by decide
  have hmx : ∀ i1 : S2048.Idx, i1 = ix1 b → val_main_v53 (F := Ideal) x0 x1 x2 x3 x4 x5 x6 x7 x8 x9 x10 x11 x12 x13 x14 x15 x16 x17 x18 x19 i1
      = max bottom ((Finset.univ : Finset (Fin 3)).fold max bottom (affine (rows x18) (entries x19) (layer (rows x16) (entries x17) (layer (rows x14) (entries x15) (joined (affine (rows x12) (entries x13) (layer (rows x10) (entries x11) (layer (rows x8) (entries x9) (fun o' => ∑ m : Fin 128, layer (rows x6) (entries x7) (layer (rows x4) (entries x5) (layer (rows x2) (entries x3) (fun i => x0 (ix3 b m i)))) o')))) (fun k => x1 (ix2 b k))))))) := by
    rintro _ rfl
    rw [val_main_v53_apply, val_main_v52_apply, val_main_cst_1_apply]
    refine congrArg (fun v : EReal => max bottom v) ?_
    unfold val_main_v51
    refine (Host.reduce_eq_fold_single FloatOps.maximumf _ _ reducesTo_S2048x3_S2048_d1 hRed h_S_ (ix1 b)).trans ?_
    exact congrArg (fun f => (Finset.univ : Finset (Fin 3)).fold max bottom f) (funext fun c' =>
      (congrArg (val_main_v50 (F := Ideal) x0 x1 x2 x3 x4 x5 x6 x7 x8 x9 x10 x11 x12 x13 x14 x15 x16 x17 x18 x19) (reduces_rows_lift hRed b c')).trans (ref_q3 x0 x1 x2 x3 x4 x5 x6 x7 x8 x9 x10 x11 x12 x13 x14 x15 x16 x17 x18 x19 b c'))
  have hexp : ∀ c' : Fin 3, val_main_v57 (F := Ideal) x0 x1 x2 x3 x4 x5 x6 x7 x8 x9 x10 x11 x12 x13 x14 x15 x16 x17 x18 x19 (ix2 b c')
      = Ideal.exp ((affine (rows x18) (entries x19) (layer (rows x16) (entries x17) (layer (rows x14) (entries x15) (joined (affine (rows x12) (entries x13) (layer (rows x10) (entries x11) (layer (rows x8) (entries x9) (fun o' => ∑ m : Fin 128, layer (rows x6) (entries x7) (layer (rows x4) (entries x5) (layer (rows x2) (entries x3) (fun i => x0 (ix3 b m i)))) o')))) (fun k => x1 (ix2 b k)))))) c' - max bottom ((Finset.univ : Finset (Fin 3)).fold max bottom (affine (rows x18) (entries x19) (layer (rows x16) (entries x17) (layer (rows x14) (entries x15) (joined (affine (rows x12) (entries x13) (layer (rows x10) (entries x11) (layer (rows x8) (entries x9) (fun o' => ∑ m : Fin 128, layer (rows x6) (entries x7) (layer (rows x4) (entries x5) (layer (rows x2) (entries x3) (fun i => x0 (ix3 b m i)))) o')))) (fun k => x1 (ix2 b k)))))))) := by
    intro c'
    rw [val_main_v57_apply, val_main_v56_apply, val_main_v55_apply, val_main_v54_apply]
    exact congrArg Ideal.exp (congrArg₂ (· - ·) (ref_q3 x0 x1 x2 x3 x4 x5 x6 x7 x8 x9 x10 x11 x12 x13 x14 x15 x16 x17 x18 x19 b c') (hmx _ (funext fun a => by match a with | ⟨0, _⟩ => rfl)))
  rw [val_main_v61_apply, val_main_v60_apply, val_main_v59_apply, val_main_v58_apply, val_main_cst_2_apply]
  unfold softmax
  refine congrArg₂ Ideal.div (hexp c) ?_
  refine (congrArg (fun z : EReal => z + _) Ideal.ofBits_zero_f32).trans ((zero_add _).trans ?_)
  refine Finset.sum_congr rfl fun c' _ => ?_
  exact (congrArg (val_main_v57 (F := Ideal) x0 x1 x2 x3 x4 x5 x6 x7 x8 x9 x10 x11 x12 x13 x14 x15 x16 x17 x18 x19) (funext fun a => by match a with | ⟨0, _⟩ => rfl | ⟨1, _⟩ => rfl)).trans (hexp c')

/-- The reference's result array is the specification's, entry by entry. -/
theorem ref_result : val_main_v61 (F := Ideal) x0 x1 x2 x3 x4 x5 x6 x7 x8 x9 x10 x11 x12 x13 x14 x15 x16 x17 x18 x19
    = result x0 x1 (arrayParams x2 x3 x4 x5 x6 x7 x8 x9 x10 x11 x12 x13 x14 x15 x16 x17 x18 x19) := by
  funext i
  obtain ⟨b, c, rfl⟩ : ∃ (b : Fin 2048) (c : Fin 3), i = ix2 b c := ⟨i 0, i 1, eq_ix2 i⟩
  exact ref_out x0 x1 x2 x3 x4 x5 x6 x7 x8 x9 x10 x11 x12 x13 x14 x15 x16 x17 x18 x19 b c

end Cert.SetNet

end
-- ==== Proof.lean ====
/-
  The kernel and its reference compute the same function on the extended reals.

  Both programs send each of 2048 sets of 128 points in ℝ³, with 3 side features per set, to three probabilities: three
  rectified affine layers on every point, the sum over the set's points, three more affine layers, the side features
  appended, three more affine layers, a softmax (Proof/Spec.lean). The kernel works on 64 sets per grid point and spells
  three steps differently from the reference: the first layer as the bias plus three products written out, against
  the reference's inner product of length three plus the bias; the first head layer as two inner products, with the
  first 40 and with the last 3 columns of the weights, against one inner product with the joined vector; and every
  weight narrowed to a shorter float format, which is the identity on the extended reals. The first two are
  rearrangements of finite sums, valid on the extended reals without any finiteness, so the precondition is not used.

  The kernel's side is read off its generated frame run block by block (Proof/K1.lean, K2.lean, K3.lean, KSoftmax.lean,
  KBlock.lean, KArray.lean), the reference's off its generated run stage by stage (Proof/Ref.lean); both result arrays
  are the one function `Cert.SetNet.result` of the argument arrays (Proof/Whole.lean). The three frames are the
  generated ones; the idealization ledger is empty.
-/
import proofs.«138870_j68839735820410_2_alg».proof.Defs
import proofs.«138870_j68839735820410_2_alg».proof.Proof.Gen.Kernel
import proofs.«138870_j68839735820410_2_alg».proof.Proof.Gen.Kernel.Skeleton
import proofs.«138870_j68839735820410_2_alg».proof.Proof.Gen.Kernel.Launch
import proofs.«138870_j68839735820410_2_alg».proof.Proof.Gen.Kernel.Points
import proofs.«138870_j68839735820410_2_alg».proof.Proof.Gen.Kernel.Frame
import proofs.«138870_j68839735820410_2_alg».proof.Proof.Gen.KernelIdeal
import proofs.«138870_j68839735820410_2_alg».proof.Proof.Gen.KernelIdeal.Skeleton
import proofs.«138870_j68839735820410_2_alg».proof.Proof.Gen.KernelIdeal.Launch
import proofs.«138870_j68839735820410_2_alg».proof.Proof.Gen.KernelIdeal.Points
import proofs.«138870_j68839735820410_2_alg».proof.Proof.Gen.KernelIdeal.Frame
import proofs.«138870_j68839735820410_2_alg».proof.Proof.Gen.ReferenceIdeal
import proofs.«138870_j68839735820410_2_alg».proof.Proof.Gen.Pre_finite_inputs
import proofs.«138870_j68839735820410_2_alg».proof.Proof.Gen.KernelIdeal.Value
import proofs.«138870_j68839735820410_2_alg».proof.Proof.Gen.ReferenceIdeal.Run
import proofs.«138870_j68839735820410_2_alg».proof.Proof.Gen.ReferenceIdeal.Read
import proofs.«138870_j68839735820410_2_alg».proof.Proof.KArray
import proofs.«138870_j68839735820410_2_alg».proof.Proof.Ref
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's, from arguments that agree, are both the
    specification's function of the arguments. -/
theorem algebraic : Cert.algebraic_KernelIdeal_ReferenceIdeal := by
  intro m ρ m' ρ' _ hagree
  refine ⟨_, Cert.SetNet.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.SetNet.ref_result]
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
